-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x128 : Shape := ⟨3, ![128, 4096, 128]⟩
abbrev S128x1x128 : Shape := ⟨3, ![128, 1, 128]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S128x4096x128 : S_.BroadcastsInDim S128x4096x128 (![] : Fin 0 → Fin S128x4096x128.rank)
  reducesTo_S128x4096x128_S_d0_1_2 : S128x4096x128.ReducesTo [0, 1, 2] S_
  h_S_ : 0 < S_.numel
  bcast_S_S128x1x128 : S_.BroadcastsInDim S128x1x128 (![] : Fin 0 → Fin S128x1x128.rank)
  reducesTo_S128x1x128_S_d0_1_2 : S128x1x128.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x64 .f32) (main_arg5 : FVec F S64 .f32) (main_arg6 : FVec F S64x1 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_v33

def fn {F : FTy → Type} [FloatOps F] (main_arg0 : FVec F S128x4096x128 .f32) (main_arg1 : FVec F S128x1x128 .f32) (main_arg2 : FVec F S256x256 .f32) (main_arg3 : FVec F S256 .f32) (main_arg4 : FVec F S256x64 .f32) (main_arg5 : FVec F S64 .f32) (main_arg6 : FVec F S64x1 .f32) (main_arg7 : FVec F S1 .f32) : IVec S_ 1 :=
  let main_v0 : FVec F S128x4096x128 .f32 := Host.absf main_arg0
  let main_cst : FVec F S_ .f32 := constant S_ .f32 0x7F800000#32
  let main_v1 : FVec F S128x4096x128 .f32 := broadcastInDim S128x4096x128 ![] bcast_S_S128x4096x128 main_cst
  let main_v2 : IVec S128x4096x128 1 := cmpf .olt main_v0 main_v1
  let main_c : IVec S_ 1 := constantI S_ 1 1#1
  let main_v3 : IVec S_ 1 := (fun x v => Host.reduce IntOp.andi x v reducesTo_S128x4096x128_S_d0_1_2 h_S_) main_v2 main_c
  let main_v4 : FVec F S128x1x128 .f32 := Host.absf main_arg1
  let main_cst_0 : FVec F S_ .f32 := constant S_ .f32 0x7F800000#32
  let main_v5 : FVec F S128x1x128 .f32 := broadcastInDim S128x1x128 ![] bcast_S_S128x1x128 main_cst_0
  let main_v6 : IVec S128x1x128 1 := cmpf .olt main_v4 main_v5
  let main_c_1 : IVec S_ 1 := constantI S_ 1 1#1
  let main_v7 : IVec S_ 1 := (fun x v => Host.reduce IntOp.andi x v reducesTo_S128x1x128_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S128x4096x128 : Shape := ⟨3, ![128, 4096, 128]⟩
abbrev S128x1x128 : Shape := ⟨3, ![128, 1, 128]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S128x256 : Shape := ⟨2, ![128, 256]⟩
abbrev S128x128 : Shape := ⟨2, ![128, 128]⟩
abbrev S1x256 : Shape := ⟨2, ![1, 256]⟩
abbrev S128x4096 : Shape := ⟨2, ![128, 4096]⟩
abbrev S64x256x128 : Shape := ⟨3, ![64, 256, 128]⟩
abbrev S64x256 : Shape := ⟨2, ![64, 256]⟩
abbrev S64x128x128 : Shape := ⟨3, ![64, 128, 128]⟩
abbrev S8192x128 : Shape := ⟨2, ![8192, 128]⟩
abbrev S8192x256 : Shape := ⟨2, ![8192, 256]⟩
abbrev S64x128x256 : Shape := ⟨3, ![64, 128, 256]⟩
abbrev S64x1x256 : Shape := ⟨3, ![64, 1, 256]⟩
abbrev S8192x64 : Shape := ⟨2, ![8192, 64]⟩
abbrev S1x64 : Shape := ⟨2, ![1, 64]⟩
abbrev S8192 : Shape := ⟨1, ![8192]⟩
abbrev S64x128 : Shape := ⟨2, ![64, 128]⟩

abbrev nBuf : Space → Nat
  | .hbm => 19
  | .vmem => 11
  | .smem => 0
  | _ => 0

abbrev bufTy : (tb : Table) → Fin (tcTables nBuf tb) → BufTy
  | .hbm, ⟨0, _⟩ => ⟨S128x4096x128, .f32⟩
  | .hbm, ⟨1, _⟩ => ⟨S128x1x128, .f32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S128x256, .f32⟩
  | .hbm, ⟨9, _⟩ => ⟨S128x256, .f32⟩
  | .hbm, ⟨10, _⟩ => ⟨S128x128, .f32⟩
  | .hbm, ⟨11, _⟩ => ⟨S128x256, .f32⟩
  | .hbm, ⟨12, _⟩ => ⟨S1x256, .f32⟩
  | .hbm, ⟨13, _⟩ => ⟨S128x256, .f32⟩
  | .hbm, ⟨14, _⟩ => ⟨S128x256, .f32⟩
  | .hbm, ⟨15, _⟩ => ⟨S128x256, .bf16⟩
  | .hbm, ⟨16, _⟩ => ⟨S256x64, .bf16⟩
  | .hbm, ⟨17, _⟩ => ⟨S64, .f32⟩
  | .hbm, ⟨18, _⟩ => ⟨S128x4096, .f32⟩
  | .local _ .vmem, ⟨0, _⟩ => ⟨S64x256x128, .f32⟩
  | .local _ .vmem, ⟨1, _⟩ => ⟨S64x256x128, .f32⟩
  | .local _ .vmem, ⟨2, _⟩ => ⟨S64x256, .f32⟩
  | .local _ .vmem, ⟨3, _⟩ => ⟨S64x256, .f32⟩
  | .local _ .vmem, ⟨4, _⟩ => ⟨S128x256, .bf16⟩
  | .local _ .vmem, ⟨5, _⟩ => ⟨S256x64, .bf16⟩
  | .local _ .vmem, ⟨6, _⟩ => ⟨S64, .f32⟩
  | .local _ .vmem, ⟨7, _⟩ => ⟨S64, .f32⟩
  | .local _ .vmem, ⟨8, _⟩ => ⟨S1, .f32⟩
  | .local _ .vmem, ⟨9, _⟩ => ⟨S64x256, .f32⟩
  | .local _ .vmem, ⟨10, _⟩ => ⟨S64x256, .f32⟩
  | _, _ => ⟨S128x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 16], ![false, false]⟩

def k0_mult1 : BitVec 32 :=
  let c0_i32 : BitVec 32 := 0#32
  let c128_i32 : BitVec 32 := 128#32
  let v11 : BitVec 32 := Scalar.muli c0_i32 c128_i32
  v11
def k0_off1 (c0_i32 : BitVec 32) : Fin 3 → Nat :=
  let c0_8 : Index := 0#32
  let c128_i32 : BitVec 32 := 128#32
  let v11 : BitVec 32 := Scalar.muli c0_i32 c128_i32
  let v12 : BitVec 32 := v11
  let v13 : Index := Scalar.indexCast v12
  let c0_9 : Index := 0#32
  ![0, v13.toNat, 0]
def k0_off2 (c0_i32 : BitVec 32) : Fin 2 → Nat :=
  let c0_14 : Index := 0#32
  let c128_i32 : BitVec 32 := 128#32
  let v11 : BitVec 32 := Scalar.muli c0_i32 c128_i32
  let v12 : BitVec 32 := v11
  let v40 : Index := Scalar.indexCast v12
  ![0, v40.toNat]
def k0_mult2 : BitVec 32 :=
  let c1_i32 : BitVec 32 := 1#32
  let c128_i32_15 : BitVec 32 := 128#32
  let v42 : BitVec 32 := Scalar.muli c1_i32 c128_i32_15
  v42
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S256x256_S128x256_0_0 : S256x256.Slices ![0, 0] S128x256
  slices_S256x256_S128x256_128_0 : S256x256.Slices ![128, 0] S128x256
  shapeCasts_S128x1x128_S128x128 : S128x1x128.ShapeCasts S128x128
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  bitsLt_bf16_f32 : FTy.bits .bf16 < FTy.bits .f32
  shapeCasts_S64x1_S64 : S64x1.ShapeCasts S64
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S64 : S64.ShapeCasts S64
  inb_S1_S1_0 : ∀ a, (![0] : Fin 1 → Nat) a + S1.size a ≤ S1.size a
  h_S1 : 0 < S1.numel
  inpos_S1_p0 : ∀ a, (![0] : Fin 1 → Nat) a < S1.size a
  inb_S64x256_S64x256_0_0 : ∀ a, (![0, 0] : Fin 2 → Nat) a + S64x256.size a ≤ S64x256.size a
  h_S64x256 : 0 < S64x256.numel
  shapeCasts_S64x256_S64x256 : S64x256.ShapeCasts S64x256
  h_S64x128x128 : 0 < S64x128x128.numel
  shapeCasts_S64x128x128_S8192x128 : S64x128x128.ShapeCasts S8192x128
  shapeCasts_S8192x256_S64x128x256 : S8192x256.ShapeCasts S64x128x256
  shapeCasts_S64x256_S64x1x256 : S64x256.ShapeCasts S64x1x256
  broadcasts_S64x1x256_S64x128x256 : S64x1x256.Broadcasts S64x128x256
  shapeCasts_S64x128x256_S8192x256 : S64x128x256.ShapeCasts S8192x256
  shapeCasts_S64_S1x64 : S64.ShapeCasts S1x64
  broadcasts_S1x64_S8192x64 : S1x64.Broadcasts S8192x64
  reduces_S8192x64_S8192 : S8192x64.Reduces [1] S8192
  shapeCasts_S8192_S64x128 : S8192.ShapeCasts S64x128
  h_S64x128 : 0 < S64x128.numel
  dot_S128x128_S128x256_S128x256_1_0_0_1_n_n_wf : DotDims.WF S128x128 S128x256 S128x256 [1] [0] [0] [1] [] []
  dot_S8192x128_S128x256_S8192x256_1_0_0_1_n_n_wf : DotDims.WF S8192x128 S128x256 S8192x256 [1] [0] [0] [1] [] []
  dot_S8192x256_S256x64_S8192x64_1_0_0_1_n_n_wf : DotDims.WF S8192x256 S256x64 S8192x64 [1] [0] [0] [1] [] []
  hrank0 : 0 < grid0.rank
  k0_mult1_dvd : 128 ∣ k0_mult1.toNat
  k0_off1_inb : ∀ (r : Fin 2), ∀ a, (k0_off1 (BitVec.ofNat 32 r.val)) a + S64x128x128.size a ≤ S64x256x128.size a
  k0_off2_inb : ∀ (r : Fin 2), ∀ a, (k0_off2 (BitVec.ofNat 32 r.val)) a + S64x128.size a ≤ S64x256.size a
  k0_mult2_dvd : 128 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x128.size a ≤ S128x4096x128.size a
  hwx0_0 : ∀ i : grid0.Coords, EltTy.bits .f32 = 32 ∨ (Rect.block (s := S128x4096x128) S64x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S128x256.size a
  hwx0_1 : ∀ i : grid0.Coords, EltTy.bits .f32 = 32 ∨ (Rect.block (s := S128x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S128x4096.size a
  hwx0_7 : ∀ i : grid0.Coords, EltTy.bits .f32 = 32 ∨ (Rect.block (s := S128x4096) S64x256.size (cc0_transform_7 i) (hinb0_7 i)).WholeWords (EltTy.packing .f32)

variable [Facts₀]

def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf

abbrev win0_0 : Pipeline.Window sig grid0 :=
  Pipeline.Window.ofSpec (Memref.whole main_arg0) S64x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S64x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x4096x128 : Shape := ⟨3, ![128, 4096, 128]⟩
abbrev S128x1x128 : Shape := ⟨3, ![128, 1, 128]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S128x4096x256 : Shape := ⟨3, ![128, 4096, 256]⟩
abbrev S1x1x256 : Shape := ⟨3, ![1, 1, 256]⟩
abbrev S_ : Shape := ⟨0, ![]⟩
abbrev S128x4096x64 : Shape := ⟨3, ![128, 4096, 64]⟩
abbrev S1x1x64 : Shape := ⟨3, ![1, 1, 64]⟩
abbrev S128x4096x1 : Shape := ⟨3, ![128, 4096, 1]⟩
abbrev S1x1x1 : Shape := ⟨3, ![1, 1, 1]⟩
abbrev S128x4096 : Shape := ⟨2, ![128, 4096]⟩

abbrev nBuf : Space → Nat
  | .hbm => 37
  | .vmem => 0
  | .smem => 0
  | _ => 0

abbrev bufTy : (tb : Table) → Fin (tcTables nBuf tb) → BufTy
  | .hbm, ⟨0, _⟩ => ⟨S128x4096x128, .f32⟩
  | .hbm, ⟨1, _⟩ => ⟨S128x1x128, .f32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S128x4096x128, .f32⟩
  | .hbm, ⟨9, _⟩ => ⟨S128x4096x256, .f32⟩
  | .hbm, ⟨10, _⟩ => ⟨S128x4096x256, .f32⟩
  | .hbm, ⟨11, _⟩ => ⟨S1x1x256, .f32⟩
  | .hbm, ⟨12, _⟩ => ⟨S128x4096x256, .f32⟩
  | .hbm, ⟨13, _⟩ => ⟨S128x4096x256, .f32⟩
  | .hbm, ⟨14, _⟩ => ⟨S_, .f32⟩
  | .hbm, ⟨15, _⟩ => ⟨S128x4096x256, .f32⟩
  | .hbm, ⟨16, _⟩ => ⟨S128x4096x256, .f32⟩
  | .hbm, ⟨17, _⟩ => ⟨S128x4096x64, .f32⟩
  | .hbm, ⟨18, _⟩ => ⟨S1x1x64, .f32⟩
  | .hbm, ⟨19, _⟩ => ⟨S128x4096x64, .f32⟩
  | .hbm, ⟨20, _⟩ => ⟨S128x4096x64, .f32⟩
  | .hbm, ⟨21, _⟩ => ⟨S_, .f32⟩
  | .hbm, ⟨22, _⟩ => ⟨S128x4096x64, .f32⟩
  | .hbm, ⟨23, _⟩ => ⟨S128x4096x64, .f32⟩
  | .hbm, ⟨24, _⟩ => ⟨S128x4096x1, .f32⟩
  | .hbm, ⟨25, _⟩ => ⟨S1x1x1, .f32⟩
  | .hbm, ⟨26, _⟩ => ⟨S128x4096x1, .f32⟩
  | .hbm, ⟨27, _⟩ => ⟨S128x4096x1, .f32⟩
  | .hbm, ⟨28, _⟩ => ⟨S128x4096x1, .f32⟩
  | .hbm, ⟨29, _⟩ => ⟨S128x4096x1, .f32⟩
  | .hbm, ⟨30, _⟩ => ⟨S_, .f32⟩
  | .hbm, ⟨31, _⟩ => ⟨S128x4096x1, .f32⟩
  | .hbm, ⟨32, _⟩ => ⟨S128x4096x1, .f32⟩
  | .hbm, ⟨33, _⟩ => ⟨S_, .f32⟩
  | .hbm, ⟨34, _⟩ => ⟨S128x4096x1, .f32⟩
  | .hbm, ⟨35, _⟩ => ⟨S128x4096x1, .f32⟩
  | .hbm, ⟨36, _⟩ => ⟨S128x4096, .f32⟩
  | _, _ => ⟨S128x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  bcast_S128x1x128_S128x4096x128_0_1_2 : S128x1x128.BroadcastsInDim S128x4096x128 (![0, 1, 2] : Fin 3 → Fin S128x4096x128.rank)
  concatenates_S128x4096x128_S128x4096x128_S128x4096x256_d2 : Shape.Concatenates [S128x4096x128, S128x4096x128] S128x4096x256 2
  bcast_S256_S1x1x256_2 : S256.BroadcastsInDim S1x1x256 (![2] : Fin 1 → Fin S1x1x256.rank)
  bcast_S1x1x256_S128x4096x256_0_1_2 : S1x1x256.BroadcastsInDim S128x4096x256 (![0, 1, 2] : Fin 3 → Fin S128x4096x256.rank)
  bcast_S_S128x4096x256 : S_.BroadcastsInDim S128x4096x256 (![] : Fin 0 → Fin S128x4096x256.rank)
  bcast_S64_S1x1x64_2 : S64.BroadcastsInDim S1x1x64 (![2] : Fin 1 → Fin S1x1x64.rank)
  bcast_S1x1x64_S128x4096x64_0_1_2 : S1x1x64.BroadcastsInDim S128x4096x64 (![0, 1, 2] : Fin 3 → Fin S128x4096x64.rank)
  bcast_S_S128x4096x64 : S_.BroadcastsInDim S128x4096x64 (![] : Fin 0 → Fin S128x4096x64.rank)
  bcast_S1_S1x1x1_2 : S1.BroadcastsInDim S1x1x1 (![2] : Fin 1 → Fin S1x1x1.rank)
  bcast_S1x1x1_S128x4096x1_0_1_2 : S1x1x1.BroadcastsInDim S128x4096x1 (![0, 1, 2] : Fin 3 → Fin S128x4096x1.rank)
  bcast_S_S128x4096x1 : S_.BroadcastsInDim S128x4096x1 (![] : Fin 0 → Fin S128x4096x1.rank)
  shapeCasts_S128x4096x1_S128x4096 : S128x4096x1.ShapeCasts S128x4096
  dot_S128x4096x256_S256x256_S128x4096x256_2_0_01_1_n_n_wf : DotDims.WF S128x4096x256 S256x256 S128x4096x256 [2] [0] [0, 1] [1] [] []
  dot_S128x4096x256_S256x64_S128x4096x64_2_0_01_1_n_n_wf : DotDims.WF S128x4096x256 S256x64 S128x4096x64 [2] [0] [0, 1] [1] [] []
  dot_S128x4096x64_S64x1_S128x4096x1_2_0_01_1_n_n_wf : DotDims.WF S128x4096x64 S64x1 S128x4096x1 [2] [0] [0, 1] [1] [] []

variable [Facts₀]

def dot_S128x4096x256_S256x256_S128x4096x256_2_0_01_1_n_n : DotDims S128x4096x256 S256x256 S128x4096x256 where
  lhsContracting := [2]
  rhsContracting := [0]
  lhsNonContracting := [0, 1]
  rhsNonContracting := [1]
  lhsBatch := []
  rhsBatch := []
  wf := dot_S128x4096x256_S256x256_S128x4096x256_2_0_01_1_n_n_wf
def dot_S128x4096x256_S256x64_S128x4096x64_2_0_01_1_n_n : DotDims S128x4096x256 S256x64 S128x4096x64 where
  lhsContracting := [2]
  rhsContracting := [0]
  lhsNonContracting := [0, 1]
  rhsNonContracting := [1]
  lhsBatch := []
  rhsBatch := []
  wf := dot_S128x4096x256_S256x64_S128x4096x64_2_0_01_1_n_n_wf
def dot_S128x4096x64_S64x1_S128x4096x1_2_0_01_1_n_n : DotDims S128x4096x64 S64x1 S128x4096x1 where
  lhsContracting := [2]
  rhsContracting := [0]
  lhsNonContracting := [0, 1]
  rhsNonContracting := [1]
  lhsBatch := []
  rhsBatch := []
  wf := dot_S128x4096x64_S64x1_S128x4096x1_2_0_01_1_n_n_wf

class Facts : Prop extends Facts₀ where

variable [Facts]
-- ==== Proof.Spec.lean ====
/-
  The function both programs compute, stated once and over no program.

  A row of hidden features x (128 numbers) and a row of new-node features y (128 numbers) are scored by a small network:
  layer 1 takes the 256 concatenated features through W1 and adds b1, then clamps below at zero; layer 2 does the same
  through W2 and b2 down to 64 numbers; the last layer is the inner product with W3 plus b3, through the logistic
  function.  The result array holds that score for every (batch row b, position s); the new-node row depends on b only.

  The two programs differ in layer 1 alone.  One contracts all 256 concatenated features at once and then adds b1.
  The other contracts the first 128 (hidden) features, and adds to that the contraction of the last 128 (new-node)
  features with b1 already added.  Splitting a finite sum at 128 and re-bracketing the additions joins them; both are
  laws of any commutative additive monoid, so they hold on the extended reals with no finiteness assumption.
-/
import Idealize.ShloMosaic.PureOps.Ideal
import Idealize.ShloMosaic.Lib.ValueIdx

noncomputable section

open scoped BigOperators
open Idealize.ShloMosaic Idealize.ShloMosaic.ValueIdx

namespace Cert.Scorer

/-- The extended real both clamps compare against: the float word of +0.0, never evaluated (it is the same word on
    both sides). -/
abbrev floor0 : EReal := Ideal.ofBits .f32 0x00000000#32

/-- Feature h of the first half of the 256 concatenated features. -/
abbrev lo (h : Fin 128) : Fin 256 := ⟨h.val, by omega⟩
/-- Feature f of the second half. -/
abbrev hi (f : Fin 128) : Fin 256 := ⟨128 + f.val, by omega⟩

/-- Layers 2 and 3 and the logistic function, from the 256 layer-1 pre-activations `a` of one row. -/
def head (a : Fin 256 → EReal) (w2 : Fin 256 → Fin 64 → EReal) (b2 w3 : Fin 64 → EReal) (b3 : EReal) : EReal :=
  Ideal.logistic ((∑ m : Fin 64, max ((∑ k : Fin 256, max (a k) floor0 * w2 k m) + b2 m) floor0 * w3 m) + b3)

/-- Layer 1's pre-activation k of one row, bracketed as a sum over the hidden half plus (the sum over the new-node
    half plus the bias). -/
def pre (x y : Fin 128 → EReal) (w1 : Fin 256 → Fin 256 → EReal) (b1 : Fin 256 → EReal) (k : Fin 256) : EReal :=
  (∑ h : Fin 128, x h * w1 (lo h) k) + ((∑ f : Fin 128, y f * w1 (hi f) k) + b1 k)

/-- The score of batch row `b` at position `s`, from the eight argument arrays. -/
def score (nh : (⟨3, ![128, 4096, 128]⟩ : Shape).Idx → EReal) (nn : (⟨3, ![128, 1, 128]⟩ : Shape).Idx → EReal)
    (W1 : (⟨2, ![256, 256]⟩ : Shape).Idx → EReal) (b1 : (⟨1, ![256]⟩ : Shape).Idx → EReal)
    (W2 : (⟨2, ![256, 64]⟩ : Shape).Idx → EReal) (b2 : (⟨1, ![64]⟩ : Shape).Idx → EReal)
    (W3 : (⟨2, ![64, 1]⟩ : Shape).Idx → EReal) (b3 : (⟨1, ![1]⟩ : Shape).Idx → EReal)
    (b : Fin 128) (s : Fin 4096) : EReal :=
  head (pre (fun h => nh (ix3 b s h)) (fun f => nn (ix3 b (0 : Fin 1) f)) (fun f k => W1 (ix2 f k)) (fun k => b1 (ix1 k)))
    (fun k m => W2 (ix2 k m)) (fun m => b2 (ix1 m)) (fun m => W3 (ix2 m (0 : Fin 1))) (b3 (ix1 (0 : Fin 1)))

/-- The result array: the score at every (b, s). -/
def G (nh : (⟨3, ![128, 4096, 128]⟩ : Shape).Idx → EReal) (nn : (⟨3, ![128, 1, 128]⟩ : Shape).Idx → EReal)
    (W1 : (⟨2, ![256, 256]⟩ : Shape).Idx → EReal) (b1 : (⟨1, ![256]⟩ : Shape).Idx → EReal)
    (W2 : (⟨2, ![256, 64]⟩ : Shape).Idx → EReal) (b2 : (⟨1, ![64]⟩ : Shape).Idx → EReal)
    (W3 : (⟨2, ![64, 1]⟩ : Shape).Idx → EReal) (b3 : (⟨1, ![1]⟩ : Shape).Idx → EReal) :
    (⟨2, ![128, 4096]⟩ : Shape).Idx → EReal :=
  fun i => score nh nn W1 b1 W2 b2 W3 b3 (i 0) (i 1)

/-- A sum over the 256 concatenated features is the sum over the first 128 plus the sum over the last 128. -/
theorem sum_split (t : Fin 256 → EReal) : ∑ k : Fin 256, t k = (∑ h : Fin 128, t (lo h)) + ∑ f : Fin 128, t (hi f) := by
  exact Fin.sum_univ_add (a := 128) (b := 128) (f := (t : Fin (128 + 128) → EReal))

/-- THE LAW joining the two programs' layer 1: contracting all 256 concatenated features and then adding the bias is
    the hidden half's contraction plus (the new-node half's contraction plus the bias).  `c` is the concatenated row:
    `x` on the first half, `y` on the second. -/
theorem pre_of_concat (x y : Fin 128 → EReal) (c : Fin 256 → EReal) (w1 : Fin 256 → Fin 256 → EReal) (b1 : Fin 256 → EReal)
    (hx : ∀ h, c (lo h) = x h) (hy : ∀ f, c (hi f) = y f) (k : Fin 256) :
    (∑ j : Fin 256, c j * w1 j k) + b1 k = pre x y w1 b1 k := by
  unfold pre
  rw [sum_split, add_assoc]
  simp only [hx, hy]

/-- The float word 0x3F800000 is the real number one. -/
theorem one_word : Ideal.ofBits .f32 0x3F800000#32 = 1 := by
  simp [Ideal.ofBits, Ideal.ieee, -EReal.coe_mul]
  norm_num

/-- The logistic function, spelt out with that word for its two ones, as the host program writes it. -/
theorem logistic_spelt (v : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) v)))
      = Ideal.logistic v := by
  rw [one_word]
  rfl

end Cert.Scorer

end
-- ==== Proof.HostScore.lean ====
/-
  The host program computes the score function of the specification.

  Its result is read one operation at a time, from the last backwards, at a fixed batch row b and position s.  The
  reshape at the end only drops a unit axis; the division, the addition of one, the exponential and the negation spell
  the logistic function; each of the three contractions is a finite sum over its one contracted axis; each bias is a
  broadcast along the other axes; each clamp is a maximum with the zero word.  Layer 1 contracts the concatenation of
  the hidden row with the (position-independent) new-node row: an entry of the concatenation below 128 is the hidden
  row's, an entry from 128 on is the new-node row's, and the specification's splitting law does the rest.
-/
import proofs.«133530_j73547019976929_2_alg».proof.Proof.Spec
import proofs.«133530_j73547019976929_2_alg».proof.Proof.Gen.ReferenceIdeal.Read

noncomputable section

open scoped BigOperators
open Idealize.ShloMosaic Idealize.ShloMosaic.ValueIdx

namespace Cert.Scorer.Host

open Cert.ReferenceIdeal Cert.ReferenceIdeal.Read Cert.Scorer

variable (x0 : (⟨S128x4096x128, .f32⟩ : BufTy).Contents (Elt Ideal)) (x1 : (⟨S128x1x128, .f32⟩ : BufTy).Contents (Elt Ideal))
  (x2 : (⟨S256x256, .f32⟩ : BufTy).Contents (Elt Ideal)) (x3 : (⟨S256, .f32⟩ : BufTy).Contents (Elt Ideal))
  (x4 : (⟨S256x64, .f32⟩ : BufTy).Contents (Elt Ideal)) (x5 : (⟨S64, .f32⟩ : BufTy).Contents (Elt Ideal))
  (x6 : (⟨S64x1, .f32⟩ : BufTy).Contents (Elt Ideal)) (x7 : (⟨S1, .f32⟩ : BufTy).Contents (Elt Ideal))

/-! ## Where each operation reads its operands, in coordinates -/

theorem lidx2 (b : Fin 128) (s : Fin 4096) (k j : Fin 256) : lidx_main_v2 (ix3 b s k) j = ix3 b s j :=
  funext fun a => Fin.ext (by match a with | ⟨0, _⟩ => rfl | ⟨1, _⟩ => rfl | ⟨2, _⟩ => rfl)
theorem ridx2 (b : Fin 128) (s : Fin 4096) (k j : Fin 256) : ridx_main_v2 (ix3 b s k) j = ix2 j k :=
  funext fun a => Fin.ext (by match a with | ⟨0, _⟩ => rfl | ⟨1, _⟩ => rfl)
theorem bias1 (b : Fin 128) (s : Fin 4096) (k : Fin 256) : idx_main_v3 (idx_main_v4 (ix3 b s k)) = ix1 k :=
  funext fun a => Fin.ext (by match a with | ⟨0, _⟩ => rfl)
theorem lidx7 (b : Fin 128) (s : Fin 4096) (m : Fin 64) (k : Fin 256) : lidx_main_v7 (ix3 b s m) k = ix3 b s k :=
  funext fun a => Fin.ext (by match a with | ⟨0, _⟩ => rfl | ⟨1, _⟩ => rfl | ⟨2, _⟩ => rfl)
theorem ridx7 (b : Fin 128) (s : Fin 4096) (m : Fin 64) (k : Fin 256) : ridx_main_v7 (ix3 b s m) k = ix2 k m :=
  funext fun a => Fin.ext (by match a with | ⟨0, _⟩ => rfl | ⟨1, _⟩ => rfl)
theorem bias2 (b : Fin 128) (s : Fin 4096) (m : Fin 64) : idx_main_v8 (idx_main_v9 (ix3 b s m)) = ix1 m :=
  funext fun a => Fin.ext (by match a with | ⟨0, _⟩ => rfl)
theorem lidx12 (b : Fin 128) (s : Fin 4096) (m : Fin 64) : lidx_main_v12 (ix3 b s (0 : Fin 1)) m = ix3 b s m :=
  funext fun a => Fin.ext (by match a with | ⟨0, _⟩ => rfl | ⟨1, _⟩ => rfl | ⟨2, _⟩ => rfl)
theorem ridx12 (b : Fin 128) (s : Fin 4096) (m : Fin 64) : ridx_main_v12 (ix3 b s (0 : Fin 1)) m = ix2 m (0 : Fin 1) :=
  funext fun a => Fin.ext (by match a with | ⟨0, _⟩ => rfl | ⟨1, _⟩ => rfl)
theorem bias3 (b : Fin 128) (s : Fin 4096) : idx_main_v13 (idx_main_v14 (ix3 b s (0 : Fin 1))) = ix1 (0 : Fin 1) :=
  funext fun a => Fin.ext (by match a with | ⟨0, _⟩ => rfl)
/-- The final reshape drops the unit axis: entry (b, s) of the result is entry (b, s, 0) before it. -/
theorem unflat (b : Fin 128) (s : Fin 4096) : idx_main_v22 (ix2 b s) = ix3 b s (0 : Fin 1) :=
  funext fun a => Fin.ext (by
    have hb : b.val < 128 := b.isLt
    have hs : s.val < 4096 := s.isLt
    match a with
    | ⟨0, _⟩ => show (b.val * 4096 + s.val) / 4096 = b.val; omega
    | ⟨1, _⟩ => show (b.val * 4096 + s.val) / 1 % 4096 = s.val; omega
    | ⟨2, _⟩ => rfl)
theorem newrow (b : Fin 128) (s : Fin 4096) (f : Fin 128) : idx_main_v0 (ix3 b s f) = ix3 b (0 : Fin 1) f :=
  funext fun a => Fin.ext (by match a with | ⟨0, _⟩ => rfl | ⟨1, _⟩ => rfl | ⟨2, _⟩ => rfl)

/-! ## The concatenated row -/

/-- Below 128 the concatenated row is the hidden row. -/
theorem concat_lo (b : Fin 128) (s : Fin 4096) (h : Fin 128) :
    val_main_v1 (F := Ideal) x0 x1 (ix3 b s (lo h)) = x0 (ix3 b s h) := by
  unfold val_main_v1
  exact concatenate_pair_apply_left (2 : Fin S128x4096x256.rank) x0 (val_main_v0 (F := Ideal) x1) _ (ix3 b s (lo h)) rfl (ix3 b s h)
    (fun a => by match a with | ⟨0, _⟩ => rfl | ⟨1, _⟩ => rfl | ⟨2, _⟩ => rfl)

/-- From 128 on it is the new-node row of batch row b, whatever the position. -/
theorem concat_hi (b : Fin 128) (s : Fin 4096) (f : Fin 128) :
    val_main_v1 (F := Ideal) x0 x1 (ix3 b s (hi f)) = x1 (ix3 b (0 : Fin 1) f) := by
  unfold val_main_v1
  refine (concatenate_pair_apply_right (2 : Fin S128x4096x256.rank) x0 (val_main_v0 (F := Ideal) x1) _ (ix3 b s (hi f)) rfl rfl (ix3 b s f)
    (fun a ha => by
      match a with
      | ⟨0, _⟩ => rfl
      | ⟨1, _⟩ => rfl
      | ⟨2, _⟩ => exact absurd rfl ha)
    (by show f.val + 128 = 128 + f.val; omega)).trans ?_
  rw [val_main_v0_apply, newrow]

/-! ## Layer by layer -/

/-- Layer 1 before its clamp, at (b, s, k). -/
theorem layer1 (b : Fin 128) (s : Fin 4096) (k : Fin 256) :
    val_main_v5 (F := Ideal) x0 x1 x2 x3 (ix3 b s k)
      = pre (fun h => x0 (ix3 b s h)) (fun f => x1 (ix3 b (0 : Fin 1) f)) (fun j k => x2 (ix2 j k)) (fun k => x3 (ix1 k)) k := by
  rw [val_main_v5_apply, val_main_v2_apply, val_main_v4_apply, val_main_v3_apply, bias1]
  simp only [lidx2, ridx2]
  exact pre_of_concat (fun h => x0 (ix3 b s h)) (fun f => x1 (ix3 b (0 : Fin 1) f)) (fun j => val_main_v1 (F := Ideal) x0 x1 (ix3 b s j))
    (fun j k => x2 (ix2 j k)) (fun k => x3 (ix1 k)) (fun h => concat_lo x0 x1 b s h) (fun f => concat_hi x0 x1 b s f) k

/-- Layer 2 before its clamp, at (b, s, m). -/
theorem layer2 (b : Fin 128) (s : Fin 4096) (m : Fin 64) :
    val_main_v10 (F := Ideal) x0 x1 x2 x3 x4 x5 (ix3 b s m)
      = (∑ k : Fin 256, max (pre (fun h => x0 (ix3 b s h)) (fun f => x1 (ix3 b (0 : Fin 1) f)) (fun j k => x2 (ix2 j k)) (fun k => x3 (ix1 k)) k) floor0
            * x4 (ix2 k m)) + x5 (ix1 m) := by
  rw [val_main_v10_apply, val_main_v7_apply, val_main_v9_apply, val_main_v8_apply, bias2]
  simp only [lidx7, ridx7, val_main_v6_apply, layer1, val_main_call0_v0_apply, val_main_call0_cst_apply]
  rfl

/-- The last layer before the logistic function, at (b, s). -/
theorem layer3 (b : Fin 128) (s : Fin 4096) :
    val_main_v15 (F := Ideal) x0 x1 x2 x3 x4 x5 x6 x7 (ix3 b s (0 : Fin 1))
      = (∑ m : Fin 64, max ((∑ k : Fin 256, max (pre (fun h => x0 (ix3 b s h)) (fun f => x1 (ix3 b (0 : Fin 1) f)) (fun j k => x2 (ix2 j k)) (fun k => x3 (ix1 k)) k) floor0
            * x4 (ix2 k m)) + x5 (ix1 m)) floor0 * x6 (ix2 m (0 : Fin 1))) + x7 (ix1 (0 : Fin 1)) := by
  rw [val_main_v15_apply, val_main_v12_apply, val_main_v14_apply, val_main_v13_apply, bias3]
  simp only [lidx12, ridx12, val_main_v11_apply, layer2, val_main_call1_v0_apply, val_main_call1_cst_apply]
  rfl

/-- THE HOST PROGRAM'S RESULT is the specification's array. -/
theorem result_is_G : val_main_v22 (F := Ideal) x0 x1 x2 x3 x4 x5 x6 x7 = G x0 x1 x2 x3 x4 x5 x6 x7 := by
  funext i
  obtain ⟨b, s, rfl⟩ : ∃ (b : Fin 128) (s : Fin 4096), i = ix2 b s := ⟨i 0, i 1, eq_ix2 i⟩
  rw [val_main_v22_apply, unflat, val_main_v21_apply, val_main_v20_apply, val_main_cst_0_apply, val_main_v19_apply,
    val_main_v18_apply, val_main_cst_apply, val_main_v17_apply, val_main_v16_apply, layer3]
  refine (logistic_spelt _).trans ?_
  rfl

end Cert.Scorer.Host

end
-- ==== Proof.KernelRow.lean ====
/-
  One chunk of the device program's body, read at an index.

  The body handles 64 batch rows by 128 positions at a time.  It flattens the chunk's (row, position) pairs into
  8192 rows of a matrix, row number 128 * row + position, multiplies by the hidden half of W1, un-flattens, adds
  the per-batch-row vector it was handed (the new-node half's contraction with the bias already added, which does not
  depend on the position), clamps, flattens again, multiplies by W2, adds b2, clamps, multiplies lane by lane by W3
  and sums the 64 lanes, adds b3, applies the logistic function, and un-flattens to 64 by 128.  Flattening and
  un-flattening move nothing: entry (128 * row + position, k) of the flat matrix is entry (row, position, k).  So
  entry (row, position) of the chunk's result is the specification's `head` of that row's layer-1 pre-activations.
-/
import proofs.«133530_j73547019976929_2_alg».proof.Proof.Spec
import proofs.«133530_j73547019976929_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.Scorer.Chunk

open Cert.KernelIdeal Cert.KernelIdeal.Gen Cert.Scorer

/-- The flat row number of (row bl, position r) of a chunk. -/
abbrev flat (bl : Fin 64) (r : Fin 128) : Fin 8192 := ⟨bl.val * 128 + r.val, by have := bl.isLt; have := r.isLt; omega⟩

/-! ## Flattening and un-flattening move nothing -/

theorem flat_rows {α : Type} (x : S64x128x128.Idx → α) (hc : S64x128x128.ShapeCasts S8192x128) (bl : Fin 64) (r h : Fin 128) :
    shapeCast S8192x128 x hc (ix2 (flat bl r) h) = x (ix3 bl r h) :=
  shapeCast_apply x hc (ix2 (flat bl r) h) (ix3 bl r h) (by rw [Shape.rowMajor_val_three, Shape.rowMajor_val_two]; rfl)

theorem unflat_rows {α : Type} (y : S8192x256.Idx → α) (hc : S8192x256.ShapeCasts S64x128x256) (bl : Fin 64) (r : Fin 128) (k : Fin 256) :
    shapeCast S64x128x256 y hc (ix3 bl r k) = y (ix2 (flat bl r) k) :=
  shapeCast_apply y hc (ix3 bl r k) (ix2 (flat bl r) k) (by rw [Shape.rowMajor_val_three, Shape.rowMajor_val_two]; rfl)

theorem reflat_rows {α : Type} (y : S64x128x256.Idx → α) (hc : S64x128x256.ShapeCasts S8192x256) (bl : Fin 64) (r : Fin 128) (k : Fin 256) :
    shapeCast S8192x256 y hc (ix2 (flat bl r) k) = y (ix3 bl r k) :=
  shapeCast_apply y hc (ix2 (flat bl r) k) (ix3 bl r k) (by rw [Shape.rowMajor_val_three, Shape.rowMajor_val_two]; rfl)

theorem unflat_out {α : Type} (v : S8192.Idx → α) (hc : S8192.ShapeCasts S64x128) (bl : Fin 64) (r : Fin 128) :
    shapeCast S64x128 v hc (ix2 bl r) = v (ix1 (flat bl r)) :=
  shapeCast_apply v hc (ix2 bl r) (ix1 (flat bl r)) (by rw [Shape.rowMajor_val_one, Shape.rowMajor_val_two]; rfl)

/-- The per-batch-row vector, given a unit position axis and repeated along it. -/
theorem along_positions {α : Type} (c : S64x256.Idx → α) (hc : S64x256.ShapeCasts S64x1x256) (hb : S64x1x256.Broadcasts S64x128x256)
    (bl : Fin 64) (r : Fin 128) (k : Fin 256) :
    broadcastTo S64x128x256 (shapeCast S64x1x256 c hc) hb (ix3 bl r k) = c (ix2 bl k) := by
  refine (broadcastTo_apply (shapeCast S64x1x256 c hc) hb (ix3 bl r k) (ix3 bl (0 : Fin 1) k) (fun a => by
    match a with
    | ⟨0, _⟩ => show bl.val = if (64 : Nat) = 1 then 0 else bl.val; rw [if_neg (by decide)]
    | ⟨1, _⟩ => show 0 = if (1 : Nat) = 1 then 0 else r.val; rw [if_pos rfl]
    | ⟨2, _⟩ => show k.val = if (256 : Nat) = 1 then 0 else k.val; rw [if_neg (by decide)])).trans ?_
  exact shapeCast_apply c hc (ix3 bl (0 : Fin 1) k) (ix2 bl k) (by
    rw [Shape.rowMajor_val_three, Shape.rowMajor_val_two]
    show bl.val * 256 + k.val = (bl.val * 1 + 0) * 256 + k.val
    omega)

/-- A 64-vector, given a unit row axis and repeated down the 8192 rows. -/
theorem down_rows {α : Type} (v : S64.Idx → α) (hc : S64.ShapeCasts S1x64) (hb : S1x64.Broadcasts S8192x64) (M : Fin 8192) (m : Fin 64) :
    broadcastTo S8192x64 (shapeCast S1x64 v hc) hb (ix2 M m) = v (ix1 m) := by
  refine (broadcastTo_apply (shapeCast S1x64 v hc) hb (ix2 M m) (ix2 (0 : Fin 1) m) (fun a => by
    match a with
    | ⟨0, _⟩ => show 0 = if (1 : Nat) = 1 then 0 else M.val; rw [if_pos rfl]
    | ⟨1, _⟩ => show m.val = if (64 : Nat) = 1 then 0 else m.val; rw [if_neg (by decide)])).trans ?_
  exact shapeCast_apply v hc (ix2 (0 : Fin 1) m) (ix1 m) (by
    rw [Shape.rowMajor_val_one, Shape.rowMajor_val_two]
    show m.val = 0 * 64 + m.val
    omega)

/-! ## The two contractions and the lane sum, as finite sums -/

theorem contract1_l0 (i : S8192x256.Idx) (q : dot_S8192x128_S128x256_S8192x256_1_0_0_1_n_n.contr.Idx) : (dot_S8192x128_S128x256_S8192x256_1_0_0_1_n_n.lhsIdx i q 0).val = (i 0).val := by
  unfold DotDims.lhsIdx
  rw [dif_neg (show ¬(0 : Fin S8192x128.rank) ∈ dot_S8192x128_S128x256_S8192x256_1_0_0_1_n_n.lhsBatch by decide), dif_pos (show (0 : Fin S8192x128.rank) ∈ dot_S8192x128_S128x256_S8192x256_1_0_0_1_n_n.lhsNonContracting by decide)]
  rfl
theorem contract1_l1 (i : S8192x256.Idx) (q : dot_S8192x128_S128x256_S8192x256_1_0_0_1_n_n.contr.Idx) : (dot_S8192x128_S128x256_S8192x256_1_0_0_1_n_n.lhsIdx i q 1).val = (q ⟨0, by decide⟩).val :=
  dot_S8192x128_S128x256_S8192x256_1_0_0_1_n_n.lhsIdx_val_of_single rfl i q
theorem contract1_r0 (i : S8192x256.Idx) (q : dot_S8192x128_S128x256_S8192x256_1_0_0_1_n_n.contr.Idx) : (dot_S8192x128_S128x256_S8192x256_1_0_0_1_n_n.rhsIdx i q 0).val = (q ⟨0, by decide⟩).val :=
  dot_S8192x128_S128x256_S8192x256_1_0_0_1_n_n.rhsIdx_val_of_single rfl i q
theorem contract1_r1 (i : S8192x256.Idx) (q : dot_S8192x128_S128x256_S8192x256_1_0_0_1_n_n.contr.Idx) : (dot_S8192x128_S128x256_S8192x256_1_0_0_1_n_n.rhsIdx i q 1).val = (i 1).val := by
  unfold DotDims.rhsIdx
  rw [dif_neg (show ¬(1 : Fin S128x256.rank) ∈ dot_S8192x128_S128x256_S8192x256_1_0_0_1_n_n.rhsBatch by decide), dif_pos (show (1 : Fin S128x256.rank) ∈ dot_S8192x128_S128x256_S8192x256_1_0_0_1_n_n.rhsNonContracting by decide)]
  rfl

/-- The first matrix product into a zero accumulator: flat row M against column k of the 128-by-256 weight. -/
theorem contract1 (a : FVec Ideal S8192x128 .bf16) (w : FVec Ideal S128x256 .bf16) (M : Fin 8192) (k : Fin 256) :
    matmul dot_S8192x128_S128x256_S8192x256_1_0_0_1_n_n none a w (constant (F := Ideal) S8192x256 .f32 0x00000000#32) (ix2 M k)
      = ∑ h : Fin 128, a (ix2 M h) * w (ix2 h k) := by
  refine (Ideal.matmul_constant_zero_apply dot_S8192x128_S128x256_S8192x256_1_0_0_1_n_n none a w (ix2 M k)).trans ?_
  rw [← Equiv.sum_comp (contrEquiv1 dot_S8192x128_S128x256_S8192x256_1_0_0_1_n_n 128 rfl rfl).symm]
  refine Finset.sum_congr rfl fun h _ => ?_
  have hk := contrEquiv1_symm_val dot_S8192x128_S128x256_S8192x256_1_0_0_1_n_n 128 rfl rfl h
  have el : dot_S8192x128_S128x256_S8192x256_1_0_0_1_n_n.lhsIdx (ix2 M k) ((contrEquiv1 dot_S8192x128_S128x256_S8192x256_1_0_0_1_n_n 128 rfl rfl).symm h) = ix2 M h :=
    funext fun c => Fin.ext (by
      match c with
      | ⟨0, _⟩ => exact contract1_l0 _ _
      | ⟨1, _⟩ => exact (contract1_l1 _ _).trans hk)
  have er : dot_S8192x128_S128x256_S8192x256_1_0_0_1_n_n.rhsIdx (ix2 M k) ((contrEquiv1 dot_S8192x128_S128x256_S8192x256_1_0_0_1_n_n 128 rfl rfl).symm h) = ix2 h k :=
    funext fun c => Fin.ext (by
      match c with
      | ⟨0, _⟩ => exact (contract1_r0 _ _).trans hk
      | ⟨1, _⟩ => exact contract1_r1 _ _)
  rw [el, er]

theorem contract2_l0 (i : S8192x64.Idx) (q : dot_S8192x256_S256x64_S8192x64_1_0_0_1_n_n.contr.Idx) : (dot_S8192x256_S256x64_S8192x64_1_0_0_1_n_n.lhsIdx i q 0).val = (i 0).val := by
  unfold DotDims.lhsIdx
  rw [dif_neg (show ¬(0 : Fin S8192x256.rank) ∈ dot_S8192x256_S256x64_S8192x64_1_0_0_1_n_n.lhsBatch by decide), dif_pos (show (0 : Fin S8192x256.rank) ∈ dot_S8192x256_S256x64_S8192x64_1_0_0_1_n_n.lhsNonContracting by decide)]
  rfl
theorem contract2_l1 (i : S8192x64.Idx) (q : dot_S8192x256_S256x64_S8192x64_1_0_0_1_n_n.contr.Idx) : (dot_S8192x256_S256x64_S8192x64_1_0_0_1_n_n.lhsIdx i q 1).val = (q ⟨0, by decide⟩).val :=
  dot_S8192x256_S256x64_S8192x64_1_0_0_1_n_n.lhsIdx_val_of_single rfl i q
theorem contract2_r0 (i : S8192x64.Idx) (q : dot_S8192x256_S256x64_S8192x64_1_0_0_1_n_n.contr.Idx) : (dot_S8192x256_S256x64_S8192x64_1_0_0_1_n_n.rhsIdx i q 0).val = (q ⟨0, by decide⟩).val :=
  dot_S8192x256_S256x64_S8192x64_1_0_0_1_n_n.rhsIdx_val_of_single rfl i q
theorem contract2_r1 (i : S8192x64.Idx) (q : dot_S8192x256_S256x64_S8192x64_1_0_0_1_n_n.contr.Idx) : (dot_S8192x256_S256x64_S8192x64_1_0_0_1_n_n.rhsIdx i q 1).val = (i 1).val := by
  unfold DotDims.rhsIdx
  rw [dif_neg (show ¬(1 : Fin S256x64.rank) ∈ dot_S8192x256_S256x64_S8192x64_1_0_0_1_n_n.rhsBatch by decide), dif_pos (show (1 : Fin S256x64.rank) ∈ dot_S8192x256_S256x64_S8192x64_1_0_0_1_n_n.rhsNonContracting by decide)]
  rfl

/-- The second matrix product into a zero accumulator: flat row M against column m of the 256-by-64 weight. -/
theorem contract2 (a : FVec Ideal S8192x256 .bf16) (w : FVec Ideal S256x64 .bf16) (M : Fin 8192) (k : Fin 64) :
    matmul dot_S8192x256_S256x64_S8192x64_1_0_0_1_n_n none a w (constant (F := Ideal) S8192x64 .f32 0x00000000#32) (ix2 M k)
      = ∑ h : Fin 256, a (ix2 M h) * w (ix2 h k) := by
  refine (Ideal.matmul_constant_zero_apply dot_S8192x256_S256x64_S8192x64_1_0_0_1_n_n none a w (ix2 M k)).trans ?_
  rw [← Equiv.sum_comp (contrEquiv1 dot_S8192x256_S256x64_S8192x64_1_0_0_1_n_n 256 rfl rfl).symm]
  refine Finset.sum_congr rfl fun h _ => ?_
  have hk := contrEquiv1_symm_val dot_S8192x256_S256x64_S8192x64_1_0_0_1_n_n 256 rfl rfl h
  have el : dot_S8192x256_S256x64_S8192x64_1_0_0_1_n_n.lhsIdx (ix2 M k) ((contrEquiv1 dot_S8192x256_S256x64_S8192x64_1_0_0_1_n_n 256 rfl rfl).symm h) = ix2 M h :=
    funext fun c => Fin.ext (by
      match c with
      | ⟨0, _⟩ => exact contract2_l0 _ _
      | ⟨1, _⟩ => exact (contract2_l1 _ _).trans hk)
  have er : dot_S8192x256_S256x64_S8192x64_1_0_0_1_n_n.rhsIdx (ix2 M k) ((contrEquiv1 dot_S8192x256_S256x64_S8192x64_1_0_0_1_n_n 256 rfl rfl).symm h) = ix2 h k :=
    funext fun c => Fin.ext (by
      match c with
      | ⟨0, _⟩ => exact (contract2_r0 _ _).trans hk
      | ⟨1, _⟩ => exact contract2_r1 _ _)
  rw [el, er]

/-- The sum over the 64 lanes of flat row M, from the zero word. -/
theorem lane_sum (src : FVec Ideal S8192x64 .f32) (hr : S8192x64.Reduces [1] S8192) (hφ : FKind.Formats .f32)
    (hacc : (0x00000000#32 : BitVec 32) = FKind.add.neutral .f32 hφ) (M : Fin 8192) :
    multiReduction .add [1] S8192 src 0x00000000#32 hr hφ hacc (ix1 M) = ∑ m : Fin 64, src (ix2 M m) := by
  refine (Ideal.multiReduction_add_single src 0x00000000#32 hr hφ hacc (ix1 M)).trans ?_
  refine Finset.sum_congr rfl fun m _ => congrArg src ?_
  funext c
  apply Fin.ext
  match c with
  | ⟨0, _⟩ => rfl
  | ⟨1, _⟩ => rfl

/-! ## The chunk's three stages -/

/-- Layer 1 of a chunk, clamped: the flat 8192-by-256 matrix that layer 2 multiplies. -/
def act1 (w1a : FVec Ideal S128x256 .bf16) (comb : FVec Ideal S64x256 .f32) (x : Vec Ideal S64x128x128 .f32) : FVec Ideal S8192x256 .bf16 :=
  truncf .bf16 (shapeCast S8192x256 (maximumf (addf
      (shapeCast S64x128x256 (matmul dot_S8192x128_S128x256_S8192x256_1_0_0_1_n_n none (truncf .bf16 (shapeCast S8192x128 x shapeCasts_S64x128x128_S8192x128) bitsLt_bf16_f32) w1a (constant S8192x256 .f32 0x00000000#32)) shapeCasts_S8192x256_S64x128x256)
      (broadcastTo S64x128x256 (shapeCast S64x1x256 comb shapeCasts_S64x256_S64x1x256) broadcasts_S64x1x256_S64x128x256))
    (broadcast S64x128x256 (Scalar.ofBits .f32 0x00000000#32))) shapeCasts_S64x128x256_S8192x256) bitsLt_bf16_f32

theorem act1_apply (w1a : FVec Ideal S128x256 .bf16) (comb : FVec Ideal S64x256 .f32) (x : Vec Ideal S64x128x128 .f32)
    (bl : Fin 64) (r : Fin 128) (k : Fin 256) :
    act1 w1a comb x (ix2 (flat bl r) k) = max ((∑ h : Fin 128, x (ix3 bl r h) * w1a (ix2 h k)) + comb (ix2 bl k)) floor0 := by
  unfold act1
  rw [truncf_apply, reflat_rows, maximumf_apply, addf_apply, unflat_rows, contract1, along_positions]
  simp only [truncf_apply, flat_rows]
  rfl

/-- Layer 2 of a chunk, clamped: 8192 rows of 64 numbers. -/
def act2 (a1 : FVec Ideal S8192x256 .bf16) (w2 : FVec Ideal S256x64 .bf16) (b2 : Vec Ideal S64 .f32) : FVec Ideal S8192x64 .f32 :=
  maximumf (addf (matmul dot_S8192x256_S256x64_S8192x64_1_0_0_1_n_n none a1 w2 (constant S8192x64 .f32 0x00000000#32))
      (broadcastTo S8192x64 (shapeCast S1x64 b2 shapeCasts_S64_S1x64) broadcasts_S1x64_S8192x64))
    (broadcast S8192x64 (Scalar.ofBits .f32 0x00000000#32))

theorem act2_apply (a1 : FVec Ideal S8192x256 .bf16) (w2 : FVec Ideal S256x64 .bf16) (b2 : Vec Ideal S64 .f32) (M : Fin 8192) (m : Fin 64) :
    act2 a1 w2 b2 (ix2 M m) = max ((∑ k : Fin 256, a1 (ix2 M k) * w2 (ix2 k m)) + b2 (ix1 m)) floor0 := by
  unfold act2
  rw [maximumf_apply, addf_apply, contract2, down_rows]
  rfl

/-- The last layer and the logistic function, un-flattened to 64 rows by 128 positions. -/
def emit (a2 : FVec Ideal S8192x64 .f32) (w3 : FVec Ideal S64 .f32) (b3 : Ideal .f32) : FVec Ideal S64x128 .f32 :=
  shapeCast S64x128 (logistic (addf (multiReduction .add [1] S8192 (mulf a2 (broadcastTo S8192x64 (shapeCast S1x64 w3 shapeCasts_S64_S1x64) broadcasts_S1x64_S8192x64)) 0x00000000#32 reduces_S8192x64_S8192 (.inl rfl) rfl)
    (broadcast S8192 b3))) shapeCasts_S8192_S64x128

theorem emit_apply (a2 : FVec Ideal S8192x64 .f32) (w3 : FVec Ideal S64 .f32) (b3 : Ideal .f32) (bl : Fin 64) (r : Fin 128) :
    emit a2 w3 b3 (ix2 bl r) = Ideal.logistic ((∑ m : Fin 64, a2 (ix2 (flat bl r) m) * w3 (ix1 m)) + b3) := by
  unfold emit
  rw [unflat_out]
  show Ideal.logistic (multiReduction (F := Ideal) (φ := .f32) .add [1] S8192 _ 0x00000000#32 _ _ _ (ix1 (flat bl r)) + b3) = _
  refine congrArg (fun z => Ideal.logistic (z + b3)) ?_
  refine (lane_sum _ _ _ _ (flat bl r)).trans ?_
  simp only [mulf_apply, down_rows]

/-! ## The two stored values -/

/-- The second chunk's stored value is the three stages composed. -/
theorem pay1_stages (v1 : FVec Ideal S128x256 .bf16) (v3 : FVec Ideal S256x64 .bf16) (v4 : Vec Ideal S64 .f32) (v6 : FVec Ideal S64 .f32)
    (v8 : Ideal .f32) (v10 : FVec Ideal S64x256 .f32) (v45 : Vec Ideal S64x128x128 .f32) :
    k0_pay1 (F := Ideal) v1 v3 v4 v6 v8 v10 v45 = emit (act2 (act1 v1 v10 v45) v3 v4) v6 v8 := rfl

/-- The first chunk's stored value is the same function of the same loaded values (read through identity casts). -/
theorem pay7_is_pay1 (v0 : Vec Ideal S128x256 .bf16) (v2 : Vec Ideal S256x64 .bf16) (v4 : Vec Ideal S64 .f32) (v5 : Vec Ideal S64 .f32)
    (v7 : Vec Ideal S1 .f32) (v9 : Vec Ideal S64x256 .f32) (v14 : Vec Ideal S64x128x128 .f32) :
    k0_pay7 (F := Ideal) v0 v2 v4 v5 v7 v9 v14 = k0_pay1 (k0_pay2 v0) (k0_pay3 v2) v4 (k0_pay4 v5) (k0_pay5 v7) (k0_pay6 v9) v14 := rfl

/-- The one-element vector's element. -/
theorem only_entry (v7 : Vec Ideal S1 .f32) (h : ∀ a, (![0] : Fin 1 → Nat) a < S1.size a) : extractAt ![0] v7 h = v7 (ix1 (0 : Fin 1)) :=
  congrArg v7 (funext fun a => Fin.ext (by match a with | ⟨0, _⟩ => rfl))

/-- Entry (bl, r) of a chunk's stored value: the specification's `head` of that row. -/
theorem pay1_apply (v1 : FVec Ideal S128x256 .bf16) (v3 : FVec Ideal S256x64 .bf16) (v4 : Vec Ideal S64 .f32) (v6 : FVec Ideal S64 .f32)
    (v8 : Ideal .f32) (v10 : FVec Ideal S64x256 .f32) (v45 : Vec Ideal S64x128x128 .f32) (bl : Fin 64) (r : Fin 128) :
    k0_pay1 (F := Ideal) v1 v3 v4 v6 v8 v10 v45 (ix2 bl r)
      = head (fun k => (∑ h : Fin 128, v45 (ix3 bl r h) * v1 (ix2 h k)) + v10 (ix2 bl k)) (fun k m => v3 (ix2 k m))
          (fun m => v4 (ix1 m)) (fun m => v6 (ix1 m)) v8 := by
  rw [pay1_stages, emit_apply]
  unfold head
  simp only [act2_apply, act1_apply]

theorem pay7_apply (v0 : Vec Ideal S128x256 .bf16) (v2 : Vec Ideal S256x64 .bf16) (v4 : Vec Ideal S64 .f32) (v5 : Vec Ideal S64 .f32)
    (v7 : Vec Ideal S1 .f32) (v9 : Vec Ideal S64x256 .f32) (v14 : Vec Ideal S64x128x128 .f32) (bl : Fin 64) (r : Fin 128) :
    k0_pay7 (F := Ideal) v0 v2 v4 v5 v7 v9 v14 (ix2 bl r)
      = head (fun k => (∑ h : Fin 128, v14 (ix3 bl r h) * v0 (ix2 h k)) + v9 (ix2 bl k)) (fun k m => v2 (ix2 k m))
          (fun m => v4 (ix1 m)) (fun m => v5 (ix1 m)) (v7 (ix1 (0 : Fin 1))) := by
  rw [pay7_is_pay1, pay1_apply]
  unfold k0_pay2 k0_pay3 k0_pay4 k0_pay5 k0_pay6
  simp only [shapeCast_self]
  exact congrArg (head _ _ _ _) (only_entry v7 _)

end Cert.Scorer.Chunk

end
-- ==== Proof.KernelBlock.lean ====
/-
  What one grid point leaves in its output block.

  A grid point is handed a block of 64 batch rows by 256 positions of hidden features, the 64 matching rows of the
  per-batch-row layer-1 vector, and the weights whole.  Its body runs the chunk computation twice, on positions 0-127
  and on positions 128-255 of the block, and stores the two 64-by-128 results side by side.  Each stored piece is the
  restriction, to its half of the columns, of ONE function of the block index: the score of (row, position) computed
  from row (row, position) of the hidden block.  Two pieces that are restrictions of one function and together cover
  the block leave that function in it.
-/
import proofs.«133530_j73547019976929_2_alg».proof.Proof.KernelRow
import proofs.«133530_j73547019976929_2_alg».proof.Proof.Gen.KernelIdeal.Frame
import Idealize.ShloMosaic.Lib.Pipeline.Value
import Idealize.ShloMosaic.Lib.Tactic

set_option maxRecDepth 16384

noncomputable section

open scoped BigOperators
open Idealize.ShloMosaic Idealize.ShloMosaic.TcCoe Idealize.ShloMosaic.Tactic Idealize.ShloMosaic.ValueIdx Idealize.SL.Sem

namespace Cert.Scorer.Block

open Cert.KernelIdeal Cert.KernelIdeal.Gen Cert.Scorer Cert.Scorer.Chunk

theorem hz1 : (![0] : Fin 1 → Nat) = fun _ => 0 := funext fun a => by fin_cases a; rfl
theorem hz2 : (![0, 0] : Fin 2 → Nat) = fun _ => 0 := funext fun a => by fin_cases a <;> rfl

/-- Entry (row bl, position q) of a grid point's output block, from the blocks the point was handed. -/
def blockRow (x0 : Vec Ideal S64x256x128 .f32) (x1 : Vec Ideal S64x256 .f32) (x2 : Vec Ideal S128x256 .bf16) (x3 : Vec Ideal S256x64 .bf16) (x4 x5 : Vec Ideal S64 .f32) (x6 : Vec Ideal S1 .f32) (bl : Fin 64) (q : Fin 256) : EReal :=
  head (fun k => (∑ h : Fin 128, x0 (ix3 bl q h) * x2 (ix2 h k)) + x1 (ix2 bl k)) (fun k m => x3 (ix2 k m))
    (fun m => x4 (ix1 m)) (fun m => x5 (ix1 m)) (x6 (ix1 (0 : Fin 1)))

/-- The whole output block. -/
def blockScore (x0 : Vec Ideal S64x256x128 .f32) (x1 : Vec Ideal S64x256 .f32) (x2 : Vec Ideal S128x256 .bf16) (x3 : Vec Ideal S256x64 .bf16) (x4 x5 : Vec Ideal S64 .f32) (x6 : Vec Ideal S1 .f32) : Vec Ideal S64x256 .f32 :=
  fun y => blockRow x0 x1 x2 x3 x4 x5 x6 (y 0) (y 1)

/-- Local index (bl, r) of the 64-by-128 piece stored from column o on is block index (bl, o + r). -/
theorem piece_place (o : Nat) (ho : o + 128 ≤ 256) (inb2 : ∀ a, (![0, o] : Fin 2 → Nat) a + (![64, 128] : Fin 2 → Nat) a ≤ S64x256.size a)
    (bl : Fin 64) (r : Fin 128) :
    (Rect.unit (s := S64x256) ![0, o] ![64, 128] inb2).emb (ix2 bl r) = ix2 bl (⟨o + r.val, by have := r.isLt; omega⟩ : Fin 256) :=
  funext fun a => Fin.ext (by
    match a with
    | ⟨0, _⟩ => show 0 + 1 * bl.val = bl.val; omega
    | ⟨1, _⟩ => show o + 1 * r.val = o + r.val; omega)

/-- The chunk computed from positions o to o + 127 of the hidden block is the block function on those columns. -/
theorem piece_value (o : Nat) (ho : o + 128 ≤ 256) (inb2 : ∀ a, (![0, o] : Fin 2 → Nat) a + (![64, 128] : Fin 2 → Nat) a ≤ S64x256.size a)
    (inb3 : ∀ a, (![0, o, 0] : Fin 3 → Nat) a + (![64, 128, 128] : Fin 3 → Nat) a ≤ S64x256x128.size a)
    (x0 : Vec Ideal S64x256x128 .f32) (x1 : Vec Ideal S64x256 .f32) (x2 : Vec Ideal S128x256 .bf16) (x3 : Vec Ideal S256x64 .bf16) (x4 x5 : Vec Ideal S64 .f32) (x6 : Vec Ideal S1 .f32) (x : (Rect.unit (s := S64x256) ![0, o] ![64, 128] inb2).shape.Idx) :
    k0_pay7 (F := Ideal) x2 x3 x4 x5 x6 x1 (View.ld x0 (Rect.unit (s := S64x256x128) ![0, o, 0] ![64, 128, 128] inb3)) x
      = blockScore x0 x1 x2 x3 x4 x5 x6 ((Rect.unit (s := S64x256) ![0, o] ![64, 128] inb2).emb x) := by
  obtain ⟨bl, r, rfl⟩ : ∃ (bl : Fin 64) (r : Fin 128), x = ix2 bl r := ⟨x 0, x 1, eq_ix2 x⟩
  rw [piece_place o ho inb2 bl r]
  show _ = blockRow x0 x1 x2 x3 x4 x5 x6 bl ⟨o + r.val, _⟩
  rw [pay7_apply]
  unfold blockRow
  have e : ∀ h : Fin 128, View.ld x0 (Rect.unit (s := S64x256x128) ![0, o, 0] ![64, 128, 128] inb3) (ix3 bl r h)
      = x0 (ix3 bl (⟨o + r.val, by have := r.isLt; omega⟩ : Fin 256) h) := fun h =>
    congrArg x0 (funext fun a => Fin.ext (by
      match a with
      | ⟨0, _⟩ => show 0 + 1 * bl.val = bl.val; omega
      | ⟨1, _⟩ => show o + 1 * r.val = o + r.val; omega
      | ⟨2, _⟩ => show 0 + 1 * h.val = h.val; omega))
  simp only [e]

/-- WHAT A GRID POINT LEAVES in its output block: the block function of the blocks it was handed. -/
theorem block_value (c : Dev nD) (i : grid0.Coords) (arg2 : Memref sig .tc .vmem S64x256x128 .f32) (harg2 : arg2.IsWhole) (arg3 : Memref sig .tc .vmem S64x256 .f32) (harg3 : arg3.IsWhole) (arg4 : Memref sig .tc .vmem S128x256 .bf16) (harg4 : arg4.IsWhole) (arg5 : Memref sig .tc .vmem S256x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S1 .f32) (harg8 : arg8.IsWhole) (arg9 : Memref sig .tc .vmem S64x256 .f32) (harg9 : arg9.IsWhole)
    (x0 : Vec Ideal S64x256x128 .f32) (x1 : Vec Ideal S64x256 .f32) (x2 : Vec Ideal S128x256 .bf16) (x3 : Vec Ideal S256x64 .bf16) (x4 x5 : Vec Ideal S64 .f32) (x6 : Vec Ideal S1 .f32) :
    out0_A_7 (F := Ideal) c i arg2 harg2 arg3 harg3 arg4 harg4 arg5 harg5 arg6 harg6 arg7 harg7 arg8 harg8 arg9 harg9 x0 x1 x2 x3 x4 x5 x6 = blockScore x0 x1 x2 x3 x4 x5 x6 := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6)]
  funext y
  unfold kernelRun0_A
  dsimp only
  sl_unfold_words
  simp only [View.readAt_eq_ld, harg2.read_unread, harg3.read_unread, harg4.read_unread, harg5.read_unread, harg6.read_unread, harg7.read_unread, harg8.read_unread,
    View.ld_unit_zero (S := S128x256) hz2, View.ld_unit_zero (S := S256x64) hz2, View.ld_unit_zero (S := S64) hz1, View.ld_unit_zero (S := S1) hz1, View.ld_unit_zero (S := S64x256) hz2]
  refine View.canon_apply_of_pieces (Val := Elt Ideal) (e := .f32) (blockScore x0 x1 x2 x3 x4 x5 x6) _ ?_ y ?_
  · intro p hp x
    rcases List.mem_cons.mp hp with rfl | hp
    · refine (congrFun (pay7_is_pay1 x2 x3 x4 x5 x6 x1 _).symm x).trans ?_
      exact piece_value 128 (by omega) (by decide) (by decide) x0 x1 x2 x3 x4 x5 x6 x
    · rcases List.mem_cons.mp hp with rfl | hp
      · exact piece_value 0 (by omega) (by decide) (by decide) x0 x1 x2 x3 x4 x5 x6 x
      · exact absurd hp List.not_mem_nil
  · have h0 : (y 0).val < 64 := (y 0).isLt
    have h1 : (y 1).val < 256 := (y 1).isLt
    by_cases hlt : (y 1).val < 128
    · refine ⟨_, List.mem_cons_of_mem _ List.mem_cons_self, ?_⟩
      refine (Rect.mem_set_unit (s := S64x256) (off := ![0, 0]) (size := ![64, 128]) (inb := by decide) (i := y)).mpr fun a => ?_
      match a with
      | ⟨0, _⟩ => show 0 ≤ (y 0).val ∧ (y 0).val < 0 + 64; omega
      | ⟨1, _⟩ => show 0 ≤ (y 1).val ∧ (y 1).val < 0 + 128; omega
    · refine ⟨_, List.mem_cons_self, ?_⟩
      refine (Rect.mem_set_unit (s := S64x256) (off := ![0, 128]) (size := ![64, 128]) (inb := by decide) (i := y)).mpr fun a => ?_
      match a with
      | ⟨0, _⟩ => show 0 ≤ (y 0).val ∧ (y 0).val < 0 + 64; omega
      | ⟨1, _⟩ => show 128 ≤ (y 1).val ∧ (y 1).val < 128 + 128; omega

/-! ## The same score from whole arrays -/

/-- The score of (batch row b, position s), from the arrays the windows stage: the hidden features, the per-batch-row
    layer-1 vector, the hidden half of W1, W2, b2, W3 as a vector, b3. -/
def winRow (A0 : Vec Ideal S128x4096x128 .f32) (A1 : Vec Ideal S128x256 .f32) (A2 : Vec Ideal S128x256 .bf16) (A3 : Vec Ideal S256x64 .bf16) (A4 A5 : Vec Ideal S64 .f32) (A6 : Vec Ideal S1 .f32) (b : Fin 128) (s : Fin 4096) : EReal :=
  head (fun k => (∑ h : Fin 128, A0 (ix3 b s h) * A2 (ix2 h k)) + A1 (ix2 b k)) (fun k m => A3 (ix2 k m))
    (fun m => A4 (ix1 m)) (fun m => A5 (ix1 m)) (A6 (ix1 (0 : Fin 1)))

/-- The whole result array, from the arrays the windows stage. -/
def winScore (A0 : Vec Ideal S128x4096x128 .f32) (A1 : Vec Ideal S128x256 .f32) (A2 : Vec Ideal S128x256 .bf16) (A3 : Vec Ideal S256x64 .bf16) (A4 A5 : Vec Ideal S64 .f32) (A6 : Vec Ideal S1 .f32) : Vec Ideal S128x4096 .f32 :=
  fun i => winRow A0 A1 A2 A3 A4 A5 A6 (i 0) (i 1)

end Cert.Scorer.Block

end
-- ==== Proof.KernelArray.lean ====
/-
  From blocks to the array.

  The grid has 2 by 16 points; point (i, j) is handed batch rows 64 i to 64 i + 63 and positions 256 j to 256 j + 255
  of the hidden features, the same batch rows of the per-batch-row layer-1 vector, the weights whole, and writes its
  64-by-256 output block back at block index (i, j) of the 128-by-4096 result.  So entry (row, position) of a point's
  output block is the score of absolute (64 i + row, 256 j + position): what the point writes back is its block of ONE
  array, the scores computed from the arrays the windows stage.  The 32 blocks tile the result, so after the last
  point the result array is that array.
-/
import proofs.«133530_j73547019976929_2_alg».proof.Proof.KernelBlock
import proofs.«133530_j73547019976929_2_alg».proof.Proof.Gen.KernelIdeal.Value

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.Scorer.Result

open Cert.KernelIdeal Cert.KernelIdeal.Gen Cert.KernelIdeal.Value Cert.Scorer Cert.Scorer.Block

/-- ONE POINT: if the blocks handed to the point at block index (ib, jb) are those blocks of the staged arrays, entry
    (bl, q) of its output block is the score of (64 ib + bl, 256 jb + q). -/
theorem block_is_window (A0 : Vec Ideal S128x4096x128 .f32) (A1 : Vec Ideal S128x256 .f32) (A2 : Vec Ideal S128x256 .bf16) (A3 : Vec Ideal S256x64 .bf16) (A4 A5 : Vec Ideal S64 .f32) (A6 : Vec Ideal S1 .f32)
    (x0 : Vec Ideal S64x256x128 .f32) (x1 : Vec Ideal S64x256 .f32) (x2 : Vec Ideal S128x256 .bf16) (x3 : Vec Ideal S256x64 .bf16) (x4 x5 : Vec Ideal S64 .f32) (x6 : Vec Ideal S1 .f32)
    (ib jb : Nat) (hib : ib < 2) (hjb : jb < 16)
    (e0 : ∀ (bl : Fin 64) (q : Fin 256) (h : Fin 128),
      x0 (ix3 bl q h) = A0 (ix3 (⟨ib * 64 + bl.val, by have := bl.isLt; omega⟩ : Fin 128) (⟨jb * 256 + q.val, by have := q.isLt; omega⟩ : Fin 4096) h))
    (e1 : ∀ (bl : Fin 64) (k : Fin 256), x1 (ix2 bl k) = A1 (ix2 (⟨ib * 64 + bl.val, by have := bl.isLt; omega⟩ : Fin 128) k))
    (e2 : ∀ (h : Fin 128) (k : Fin 256), x2 (ix2 h k) = A2 (ix2 h k))
    (e3 : ∀ (k : Fin 256) (m : Fin 64), x3 (ix2 k m) = A3 (ix2 k m))
    (e4 : ∀ m : Fin 64, x4 (ix1 m) = A4 (ix1 m)) (e5 : ∀ m : Fin 64, x5 (ix1 m) = A5 (ix1 m))
    (e6 : x6 (ix1 (0 : Fin 1)) = A6 (ix1 (0 : Fin 1))) (bl : Fin 64) (q : Fin 256) :
    blockRow x0 x1 x2 x3 x4 x5 x6 bl q
      = winRow A0 A1 A2 A3 A4 A5 A6 (⟨ib * 64 + bl.val, by have := bl.isLt; omega⟩ : Fin 128) (⟨jb * 256 + q.val, by have := q.isLt; omega⟩ : Fin 4096) := by
  unfold blockRow winRow
  simp only [e0, e1, e2, e3, e4, e5, e6]

/-- The printed index maps, decided once over the 32 grid points: the hidden block moves with the output block, the
    per-batch-row vector with its batch coordinate, the weights do not move, and the output's block indices stay in
    their ranges. -/
theorem idx_facts : ∀ t : Fin cfg0.N,
    win0_0.index t (0 : Fin 3) = win0_7.index t (0 : Fin 2) ∧ win0_0.index t (1 : Fin 3) = win0_7.index t (1 : Fin 2)
    ∧ win0_0.index t (2 : Fin 3) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 2) < 2 ∧ win0_7.index t (1 : Fin 2) < 16 :=
  (by decide +kernel : ∀ t : Fin grid0.N, _)

/-- Every block index of the result is some point's. -/
theorem idx_onto : ∀ (q0 : Fin 2) (q1 : Fin 16), ∃ t : Fin cfg0.N, win0_7.index t = ![q0.val, q1.val] :=
  (by decide +kernel : ∀ (q0 : Fin 2) (q1 : Fin 16), ∃ t : Fin grid0.N, win0_7.index t = ![q0.val, q1.val])

variable (m : (ℓ : Loc nD τ sig) → Buf (Elt Ideal) ℓ) (ρ : Dev nD → PrngReg)

/-- WHAT POINT t WRITES BACK is its block of the score array of the staged arrays. -/
theorem flushed_eq (c : Dev nD) (t : Fin cfg0.N) :
    (dats m 0 c).flushed 7 t
      = ((cfg0.win 7).blk t).view.read (Elt Ideal) (winScore (V m c main_arg0) (V m c main_v6) (V m c main_v7) (V m c main_v8) (V m c main_arg5) (V m c main_v9) (V m c main_arg7)) := by
  rw [flushed7_A, block_value]
  obtain ⟨f00, f01, f02, f10, f11, f20, f21, f30, f31, f40, f50, f60, hi, hj⟩ := idx_facts t
  funext j
  have hj0 : (j 0).val < 64 := (j 0).isLt
  have hj1 : (j 1).val < 256 := (j 1).isLt
  have key := block_is_window (V m c main_arg0) (V m c main_v6) (V m c main_v7) (V m c main_v8) (V m c main_arg5) (V m c main_v9) (V m c main_arg7)
    (iblk m c 0 t) (iblk m c 1 t) (iblk m c 2 t) (iblk m c 3 t) (iblk m c 4 t) (iblk m c 5 t) (iblk m c 6 t)
    (win0_7.index t (0 : Fin 2)) (win0_7.index t (1 : Fin 2)) hi hj
    (fun bl q h => by
      show V m c main_arg0 (((cfg0.win 0).blk t).view.emb (ix3 bl q h)) = _
      refine congrArg (V m c main_arg0) (funext fun a => Fin.ext ?_)
      match a with
      | ⟨0, _⟩ => show win0_0.index t (0 : Fin 3) * 64 + 1 * bl.val = win0_7.index t (0 : Fin 2) * 64 + bl.val; omega
      | ⟨1, _⟩ => show win0_0.index t (1 : Fin 3) * 256 + 1 * q.val = win0_7.index t (1 : Fin 2) * 256 + q.val; omega
      | ⟨2, _⟩ => show win0_0.index t (2 : Fin 3) * 128 + 1 * h.val = h.val; omega)
    (fun bl k => by
      show V m c main_v6 (((cfg0.win 1).blk t).view.emb (ix2 bl k)) = _
      refine congrArg (V m c main_v6) (funext fun a => Fin.ext ?_)
      match a with
      | ⟨0, _⟩ => show win0_1.index t (0 : Fin 2) * 64 + 1 * bl.val = win0_7.index t (0 : Fin 2) * 64 + bl.val; omega
      | ⟨1, _⟩ => show win0_1.index t (1 : Fin 2) * 256 + 1 * k.val = k.val; omega)
    (fun h k => by
      show V m c main_v7 (((cfg0.win 2).blk t).view.emb (ix2 h k)) = _
      refine congrArg (V m c main_v7) (funext fun a => Fin.ext ?_)
      match a with
      | ⟨0, _⟩ => show win0_2.index t (0 : Fin 2) * 128 + 1 * h.val = h.val; omega
      | ⟨1, _⟩ => show win0_2.index t (1 : Fin 2) * 256 + 1 * k.val = k.val; omega)
    (fun k mm => by
      show V m c main_v8 (((cfg0.win 3).blk t).view.emb (ix2 k mm)) = _
      refine congrArg (V m c main_v8) (funext fun a => Fin.ext ?_)
      match a with
      | ⟨0, _⟩ => show win0_3.index t (0 : Fin 2) * 256 + 1 * k.val = k.val; omega
      | ⟨1, _⟩ => show win0_3.index t (1 : Fin 2) * 64 + 1 * mm.val = mm.val; omega)
    (fun mm => by
      show V m c main_arg5 (((cfg0.win 4).blk t).view.emb (ix1 mm)) = _
      refine congrArg (V m c main_arg5) (funext fun a => Fin.ext ?_)
      match a with
      | ⟨0, _⟩ => show win0_4.index t (0 : Fin 1) * 64 + 1 * mm.val = mm.val; omega)
    (fun mm => by
      show V m c main_v9 (((cfg0.win 5).blk t).view.emb (ix1 mm)) = _
      refine congrArg (V m c main_v9) (funext fun a => Fin.ext ?_)
      match a with
      | ⟨0, _⟩ => show win0_5.index t (0 : Fin 1) * 64 + 1 * mm.val = mm.val; omega)
    (by
      show V m c main_arg7 (((cfg0.win 6).blk t).view.emb (ix1 (0 : Fin 1))) = _
      refine congrArg (V m c main_arg7) (funext fun a => Fin.ext ?_)
      match a with
      | ⟨0, _⟩ => show win0_6.index t (0 : Fin 1) * 1 + 1 * 0 = 0; omega)
    ⟨(j 0).val, hj0⟩ ⟨(j 1).val, hj1⟩
  refine Eq.trans ?_ (key.trans ?_)
  · rfl
  · show winRow (V m c main_arg0) (V m c main_v6) (V m c main_v7) (V m c main_v8) (V m c main_arg5) (V m c main_v9) (V m c main_arg7) _ _
      = winRow (V m c main_arg0) (V m c main_v6) (V m c main_v7) (V m c main_v8) (V m c main_arg5) (V m c main_v9) (V m c main_arg7) ((((cfg0.win 7).blk t).view.emb j) 0) ((((cfg0.win 7).blk t).view.emb j) 1)
    congr 1
    · exact Fin.ext (by show win0_7.index t (0 : Fin 2) * 64 + (j 0).val = win0_7.index t (0 : Fin 2) * 64 + 1 * (j 0).val; omega)
    · exact Fin.ext (by show win0_7.index t (1 : Fin 2) * 256 + (j 1).val = win0_7.index t (1 : Fin 2) * 256 + 1 * (j 1).val; omega)

/-- An index of the result is in point t's block iff each coordinate is in the block's range on its axis. -/
theorem mem_blk (t : Fin cfg0.N) (i : S128x4096.Idx) :
    i ∈ ((cfg0.win 7).blk t).view.set
      ↔ ∀ a : Fin 2, win0_7.index t a * S64x256.size a ≤ (i a).val ∧ (i a).val < win0_7.index t a * S64x256.size a + S64x256.size a := by
  show i ∈ ((View.whole main_v10).slice (win0_7.rect t)).set ↔ _
  rw [View.set_slice_whole, Rect.mem_set_unit]
  exact Iff.rfl

/-- THE BLOCKS TILE THE RESULT: entry (b, s) is in the block of the point at block index (b / 64, s / 256), and every
    point writes its block back. -/
theorem cover (i : S128x4096.Idx) : ∃ t : Fin cfg0.N, (cfg0.win 7).flush t = true ∧ i ∈ ((cfg0.win 7).blk t).view.set := by
  have hi0 : (i 0).val < 128 := (i 0).isLt
  have hi1 : (i 1).val < 4096 := (i 1).isLt
  obtain ⟨t, ht⟩ := idx_onto ⟨(i 0).val / 64, by omega⟩ ⟨(i 1).val / 256, by omega⟩
  have q0 : win0_7.index t (0 : Fin 2) = (i 0).val / 64 := congrFun ht 0
  have q1 : win0_7.index t (1 : Fin 2) = (i 1).val / 256 := congrFun ht 1
  refine ⟨t, flush0_7 t, ?_⟩
  rw [mem_blk]
  intro a
  match a with
  | ⟨0, _⟩ => show win0_7.index t (0 : Fin 2) * 64 ≤ (i 0).val ∧ (i 0).val < win0_7.index t (0 : Fin 2) * 64 + 64; omega
  | ⟨1, _⟩ => show win0_7.index t (1 : Fin 2) * 256 ≤ (i 1).val ∧ (i 1).val < win0_7.index t (1 : Fin 2) * 256 + 256; omega

/-- THE RESULT ARRAY after the last point: the score array of the staged arrays. -/
theorem final (c : Dev nD) :
    (dats m 0 c).arrAt 7 cfg0.N = winScore (V m c main_arg0) (V m c main_v6) (V m c main_v7) (V m c main_v8) (V m c main_arg5) (V m c main_v9) (V m c main_arg7) :=
  (dats m 0 c).arrAt_eq_of_cover 7 (winScore (V m c main_arg0) (V m c main_v6) (V m c main_v7) (V m c main_v8) (V m c main_arg5) (V m c main_v9) (V m c main_arg7))
    (fun t _ => flushed_eq m c t) cover

end Cert.Scorer.Result

end
-- ==== Proof.HostPrefix.lean ====
/-
  What the device program's host operations hand to the grid.

  Before the grid runs, the program slices W1 into its hidden half (rows 0-127) and its new-node half (rows 128-255),
  contracts each batch row's new-node features with the new-node half and adds b1 (the per-batch-row layer-1 vector),
  changes the float format of the hidden half and of W2 (the identity on extended reals), and reads W3's one column as a
  vector.  Read at an index, these are exactly the terms the specification's layer 1 is bracketed into, so the score
  computed from the staged arrays is the specification's array of the arguments.
-/
import proofs.«133530_j73547019976929_2_alg».proof.Proof.KernelBlock
import Idealize.ShloMosaic.Lib.StableHlo.Run

noncomputable section

open scoped BigOperators
open Idealize.ShloMosaic Idealize.ShloMosaic.TcCoe Idealize.ShloMosaic.ValueIdx Idealize.SL.Sem Idealize.ShloMosaic.StableHlo

namespace Cert.Scorer.Staged

open Cert.KernelIdeal Cert.KernelIdeal.Gen Cert.Scorer Cert.Scorer.Block

variable (m : (ℓ : Loc nD τ sig) → Buf (Elt Ideal) ℓ)

/-! ## The eight argument arrays on core c, as launched -/

abbrev aNH (c : Dev nD) : Vec Ideal S128x4096x128 .f32 := m ((c : Thread nD τ).loc main_arg0)
abbrev aNN (c : Dev nD) : Vec Ideal S128x1x128 .f32 := m ((c : Thread nD τ).loc main_arg1)
abbrev aW1 (c : Dev nD) : Vec Ideal S256x256 .f32 := m ((c : Thread nD τ).loc main_arg2)
abbrev aB1 (c : Dev nD) : Vec Ideal S256 .f32 := m ((c : Thread nD τ).loc main_arg3)
abbrev aW2 (c : Dev nD) : Vec Ideal S256x64 .f32 := m ((c : Thread nD τ).loc main_arg4)
abbrev aB2 (c : Dev nD) : Vec Ideal S64 .f32 := m ((c : Thread nD τ).loc main_arg5)
abbrev aW3 (c : Dev nD) : Vec Ideal S64x1 .f32 := m ((c : Thread nD τ).loc main_arg6)
abbrev aB3 (c : Dev nD) : Vec Ideal S1 .f32 := m ((c : Thread nD τ).loc main_arg7)

/-! ## The staged arrays as terms of the arguments -/

theorem staged_vec (c : Dev nD) : (V m c main_v6 : Vec Ideal S128x256 .f32)
    = addf (Host.dotGeneral (F := Ideal) (φ₁ := .f32) (φ₂ := .f32) dot_S128x128_S128x256_S128x256_1_0_0_1_n_n none
          (shapeCast S128x128 (aNN m c) shapeCasts_S128x1x128_S128x128)
          (extractStridedSlice S128x256 ![128, 0] (aW1 m c) slices_S256x256_S128x256_128_0))
        (broadcastInDim S128x256 ![0, 1] bcast_S1x256_S128x256_0_1 (broadcastInDim S1x256 ![1] bcast_S256_S1x256_1 (aB1 m c))) := by
  dsimp only [Gen.V, Gen.hostOps0]; after_results <;> rfl

theorem staged_w1a (c : Dev nD) : (V m c main_v7 : Vec Ideal S128x256 .bf16)
    = truncf (F := Ideal) .bf16 (extractStridedSlice S128x256 ![0, 0] (aW1 m c) slices_S256x256_S128x256_0_0) bitsLt_bf16_f32 := by
  dsimp only [Gen.V, Gen.hostOps0]; after_results <;> rfl

theorem staged_w2 (c : Dev nD) : (V m c main_v8 : Vec Ideal S256x64 .bf16) = truncf (F := Ideal) .bf16 (aW2 m c) bitsLt_bf16_f32 := by
  dsimp only [Gen.V, Gen.hostOps0]; after_results <;> rfl

theorem staged_w3 (c : Dev nD) : (V m c main_v9 : Vec Ideal S64 .f32) = shapeCast S64 (aW3 m c) shapeCasts_S64x1_S64 := by
  dsimp only [Gen.V, Gen.hostOps0]; after_results <;> rfl

/-! ## Read at an index -/

theorem pre_l0 (i : S128x256.Idx) (q : dot_S128x128_S128x256_S128x256_1_0_0_1_n_n.contr.Idx) : (dot_S128x128_S128x256_S128x256_1_0_0_1_n_n.lhsIdx i q 0).val = (i 0).val := by
  unfold DotDims.lhsIdx
  rw [dif_neg (show ¬(0 : Fin S128x128.rank) ∈ dot_S128x128_S128x256_S128x256_1_0_0_1_n_n.lhsBatch by decide), dif_pos (show (0 : Fin S128x128.rank) ∈ dot_S128x128_S128x256_S128x256_1_0_0_1_n_n.lhsNonContracting by decide)]
  rfl
theorem pre_l1 (i : S128x256.Idx) (q : dot_S128x128_S128x256_S128x256_1_0_0_1_n_n.contr.Idx) : (dot_S128x128_S128x256_S128x256_1_0_0_1_n_n.lhsIdx i q 1).val = (q ⟨0, by decide⟩).val :=
  dot_S128x128_S128x256_S128x256_1_0_0_1_n_n.lhsIdx_val_of_single rfl i q
theorem pre_r0 (i : S128x256.Idx) (q : dot_S128x128_S128x256_S128x256_1_0_0_1_n_n.contr.Idx) : (dot_S128x128_S128x256_S128x256_1_0_0_1_n_n.rhsIdx i q 0).val = (q ⟨0, by decide⟩).val :=
  dot_S128x128_S128x256_S128x256_1_0_0_1_n_n.rhsIdx_val_of_single rfl i q
theorem pre_r1 (i : S128x256.Idx) (q : dot_S128x128_S128x256_S128x256_1_0_0_1_n_n.contr.Idx) : (dot_S128x128_S128x256_S128x256_1_0_0_1_n_n.rhsIdx i q 1).val = (i 1).val := by
  unfold DotDims.rhsIdx
  rw [dif_neg (show ¬(1 : Fin S128x256.rank) ∈ dot_S128x128_S128x256_S128x256_1_0_0_1_n_n.rhsBatch by decide), dif_pos (show (1 : Fin S128x256.rank) ∈ dot_S128x128_S128x256_S128x256_1_0_0_1_n_n.rhsNonContracting by decide)]
  rfl

/-- The host's contraction of a batch row's 128 new-node features with a 128-by-256 weight, as a finite sum. -/
theorem host_contract (a : FVec Ideal S128x128 .f32) (w : FVec Ideal S128x256 .f32) (b : Fin 128) (k : Fin 256) :
    Host.dotGeneral (F := Ideal) dot_S128x128_S128x256_S128x256_1_0_0_1_n_n none a w (ix2 b k) = ∑ f : Fin 128, a (ix2 b f) * w (ix2 f k) := by
  simp only [Host.dotGeneral]
  rw [Ideal.dotGeneral_apply, ← Equiv.sum_comp (contrEquiv1 dot_S128x128_S128x256_S128x256_1_0_0_1_n_n 128 rfl rfl).symm]
  refine Finset.sum_congr rfl fun f _ => ?_
  have hk := contrEquiv1_symm_val dot_S128x128_S128x256_S128x256_1_0_0_1_n_n 128 rfl rfl f
  have el : dot_S128x128_S128x256_S128x256_1_0_0_1_n_n.lhsIdx (ix2 b k) ((contrEquiv1 dot_S128x128_S128x256_S128x256_1_0_0_1_n_n 128 rfl rfl).symm f) = ix2 b f :=
    funext fun d => Fin.ext (by
      match d with
      | ⟨0, _⟩ => exact pre_l0 _ _
      | ⟨1, _⟩ => exact (pre_l1 _ _).trans hk)
  have er : dot_S128x128_S128x256_S128x256_1_0_0_1_n_n.rhsIdx (ix2 b k) ((contrEquiv1 dot_S128x128_S128x256_S128x256_1_0_0_1_n_n 128 rfl rfl).symm f) = ix2 f k :=
    funext fun d => Fin.ext (by
      match d with
      | ⟨0, _⟩ => exact (pre_r0 _ _).trans hk
      | ⟨1, _⟩ => exact pre_r1 _ _)
  rw [el, er]

/-- The per-batch-row layer-1 vector: the new-node half's contraction plus the bias. -/
theorem vec_apply (c : Dev nD) (b : Fin 128) (k : Fin 256) :
    (V m c main_v6 : Vec Ideal S128x256 .f32) (ix2 b k)
      = (∑ f : Fin 128, aNN m c (ix3 b (0 : Fin 1) f) * aW1 m c (ix2 (hi f) k)) + aB1 m c (ix1 k) := by
  refine (congrFun (staged_vec m c) (ix2 b k)).trans ?_
  rw [addf_apply, host_contract]
  have e1 : ∀ f : Fin 128, shapeCast S128x128 (aNN m c) shapeCasts_S128x1x128_S128x128 (ix2 b f) = aNN m c (ix3 b (0 : Fin 1) f) := fun f =>
    shapeCast_apply (aNN m c) shapeCasts_S128x1x128_S128x128 (ix2 b f) (ix3 b (0 : Fin 1) f) (by
      rw [Shape.rowMajor_val_three, Shape.rowMajor_val_two]
      show (b.val * 1 + 0) * 128 + f.val = b.val * 128 + f.val
      omega)
  have e2 : ∀ f : Fin 128, extractStridedSlice S128x256 ![128, 0] (aW1 m c) slices_S256x256_S128x256_128_0 (ix2 f k) = aW1 m c (ix2 (hi f) k) := fun f =>
    extractStridedSlice_apply ![128, 0] (aW1 m c) slices_S256x256_S128x256_128_0 (ix2 f k) (ix2 (hi f) k) (fun a => by
      match a with
      | ⟨0, _⟩ => rfl
      | ⟨1, _⟩ => show k.val = 0 + k.val; omega)
  have e3 : broadcastInDim S128x256 ![0, 1] bcast_S1x256_S128x256_0_1 (broadcastInDim S1x256 ![1] bcast_S256_S1x256_1 (aB1 m c)) (ix2 b k) = aB1 m c (ix1 k) := by
    refine (broadcastInDim_apply _ bcast_S1x256_S128x256_0_1 (broadcastInDim S1x256 ![1] bcast_S256_S1x256_1 (aB1 m c)) (ix2 b k) (ix2 (0 : Fin 1) k) (fun a => by
      match a with
      | ⟨0, _⟩ => show 0 = if (1 : Nat) = 1 then 0 else b.val; rw [if_pos rfl]
      | ⟨1, _⟩ => show k.val = if (256 : Nat) = 1 then 0 else k.val; rw [if_neg (by decide)])).trans ?_
    exact broadcastInDim_apply _ bcast_S256_S1x256_1 (aB1 m c) (ix2 (0 : Fin 1) k) (ix1 k) (fun a => by
      match a with
      | ⟨0, _⟩ => show k.val = if (256 : Nat) = 1 then 0 else k.val; rw [if_neg (by decide)])
  simp only [e1, e2, e3]

/-- The hidden half of W1. -/
theorem w1a_apply (c : Dev nD) (h : Fin 128) (k : Fin 256) : (V m c main_v7 : Vec Ideal S128x256 .bf16) (ix2 h k) = aW1 m c (ix2 (lo h) k) := by
  refine (congrFun (staged_w1a m c) (ix2 h k)).trans ?_
  rw [truncf_apply]
  exact extractStridedSlice_apply ![0, 0] (aW1 m c) slices_S256x256_S128x256_0_0 (ix2 h k) (ix2 (lo h) k) (fun a => by
    match a with
    | ⟨0, _⟩ => show h.val = 0 + h.val; omega
    | ⟨1, _⟩ => show k.val = 0 + k.val; omega)

/-- W2, its float format changed. -/
theorem w2_apply (c : Dev nD) (i : S256x64.Idx) : (V m c main_v8 : Vec Ideal S256x64 .bf16) i = aW2 m c i :=
  congrFun (staged_w2 m c) i

/-- W3's one column as a vector. -/
theorem w3_apply (c : Dev nD) (mm : Fin 64) : (V m c main_v9 : Vec Ideal S64 .f32) (ix1 mm) = aW3 m c (ix2 mm (0 : Fin 1)) := by
  refine (congrFun (staged_w3 m c) (ix1 mm)).trans ?_
  exact shapeCast_apply (aW3 m c) shapeCasts_S64x1_S64 (ix1 mm) (ix2 mm (0 : Fin 1)) (by
    rw [Shape.rowMajor_val_one, Shape.rowMajor_val_two]
    show mm.val * 1 + 0 = mm.val
    omega)

/-- ONE ROW: if the staged arrays read, at every index, as those terms of eight arrays, the score from the staged arrays
    is the specification's score of the eight arrays. -/
theorem row_of_staged (A0 : Vec Ideal S128x4096x128 .f32) (A1 : Vec Ideal S128x256 .f32) (A2 : Vec Ideal S128x256 .bf16) (A3 : Vec Ideal S256x64 .bf16) (A4 A5 : Vec Ideal S64 .f32) (A6 : Vec Ideal S1 .f32)
    (nh : Vec Ideal S128x4096x128 .f32) (nn : Vec Ideal S128x1x128 .f32) (W1 : Vec Ideal S256x256 .f32) (b1 : Vec Ideal S256 .f32)
    (W2 : Vec Ideal S256x64 .f32) (b2 : Vec Ideal S64 .f32) (W3 : Vec Ideal S64x1 .f32) (b3 : Vec Ideal S1 .f32)
    (e0 : ∀ (b : Fin 128) (s : Fin 4096) (h : Fin 128), A0 (ix3 b s h) = nh (ix3 b s h))
    (e1 : ∀ (b : Fin 128) (k : Fin 256), A1 (ix2 b k) = (∑ f : Fin 128, nn (ix3 b (0 : Fin 1) f) * W1 (ix2 (hi f) k)) + b1 (ix1 k))
    (e2 : ∀ (h : Fin 128) (k : Fin 256), A2 (ix2 h k) = W1 (ix2 (lo h) k))
    (e3 : ∀ (k : Fin 256) (mm : Fin 64), A3 (ix2 k mm) = W2 (ix2 k mm))
    (e4 : ∀ mm : Fin 64, A4 (ix1 mm) = b2 (ix1 mm)) (e5 : ∀ mm : Fin 64, A5 (ix1 mm) = W3 (ix2 mm (0 : Fin 1)))
    (e6 : A6 (ix1 (0 : Fin 1)) = b3 (ix1 (0 : Fin 1))) (b : Fin 128) (s : Fin 4096) :
    winRow A0 A1 A2 A3 A4 A5 A6 b s = score nh nn W1 b1 W2 b2 W3 b3 b s := by
  unfold winRow score pre
  simp only [e0, e1, e2, e3, e4, e5, e6]

/-- THE SCORE COMPUTED FROM THE STAGED ARRAYS is the specification's array of the arguments. -/
theorem staged_is_G (c : Dev nD) :
    winScore (V m c main_arg0) (V m c main_v6) (V m c main_v7) (V m c main_v8) (V m c main_arg5) (V m c main_v9) (V m c main_arg7)
      = G (aNH m c) (aNN m c) (aW1 m c) (aB1 m c) (aW2 m c) (aB2 m c) (aW3 m c) (aB3 m c) := by
  funext i
  obtain ⟨b, s, rfl⟩ : ∃ (b : Fin 128) (s : Fin 4096), i = ix2 b s := ⟨i 0, i 1, eq_ix2 i⟩
  exact row_of_staged (V m c main_arg0) (V m c main_v6) (V m c main_v7) (V m c main_v8) (V m c main_arg5) (V m c main_v9) (V m c main_arg7)
    (aNH m c) (aNN m c) (aW1 m c) (aB1 m c) (aW2 m c) (aB2 m c) (aW3 m c) (aB3 m c)
    (fun b s h => congrFun (V_main_arg0 m c) (ix3 b s h)) (fun b k => vec_apply m c b k) (fun h k => w1a_apply m c h k)
    (fun k mm => w2_apply m c (ix2 k mm)) (fun mm => congrFun (V_main_arg5 m c) (ix1 mm)) (fun mm => w3_apply m c mm)
    (congrFun (V_main_arg7 m c) (ix1 (0 : Fin 1))) b s

end Cert.Scorer.Staged

end
-- ==== Proof.lean ====
/-
  A device program and a host program score every (batch row, position) pair of a hidden-feature array against that
  batch row's new-node features with the same three-layer network, and this file proves that at exact arithmetic on the
  extended reals they produce the same 128-by-4096 array.

  The host program concatenates the hidden row with the new-node row and contracts all 256 features with W1 before
  adding b1.  The device program contracts the new-node half with its half of W1 once per batch row and adds b1 to
  that, outside its grid; inside the grid each point contracts the hidden half and adds the per-batch-row vector.
  The two layer-1 values differ only in where a sum over 256 features is split at 128 and how three summands are
  bracketed, which is the same extended real by the laws of a commutative additive monoid; no input needs to be finite
  for it.  Clamps, the second and third layers and the logistic function are the same operations on both sides.

  Each program's run is taken from what is generated for it; what is written here and in the modules this file
  imports is the reading of each side at an index and the law between them:
    Spec        the score function, the law for layer 1, the logistic function spelt out
    HostScore   the host program's result is that function of the arguments
    KernelRow   one 64-by-128 chunk of the device program's body at an index
    KernelBlock what one grid point leaves in its 64-by-256 output block
    KernelArray the 32 blocks tile the result, which is therefore the score array of the staged arrays
    HostPrefix  the staged arrays are the terms layer 1 is bracketed into
  The device program's idealization rewrote nothing, so that conjunct is trivial.
-/
import proofs.«133530_j73547019976929_2_alg».proof.Defs
import proofs.«133530_j73547019976929_2_alg».proof.Proof.Gen.Kernel
import proofs.«133530_j73547019976929_2_alg».proof.Proof.Gen.Kernel.Skeleton
import proofs.«133530_j73547019976929_2_alg».proof.Proof.Gen.Kernel.Launch
import proofs.«133530_j73547019976929_2_alg».proof.Proof.Gen.Kernel.Points
import proofs.«133530_j73547019976929_2_alg».proof.Proof.Gen.Kernel.Frame
import proofs.«133530_j73547019976929_2_alg».proof.Proof.Gen.KernelIdeal
import proofs.«133530_j73547019976929_2_alg».proof.Proof.Gen.KernelIdeal.Skeleton
import proofs.«133530_j73547019976929_2_alg».proof.Proof.Gen.KernelIdeal.Launch
import proofs.«133530_j73547019976929_2_alg».proof.Proof.Gen.KernelIdeal.Points
import proofs.«133530_j73547019976929_2_alg».proof.Proof.Gen.KernelIdeal.Frame
import proofs.«133530_j73547019976929_2_alg».proof.Proof.Gen.ReferenceIdeal
import proofs.«133530_j73547019976929_2_alg».proof.Proof.Gen.Pre_finite_inputs
import proofs.«133530_j73547019976929_2_alg».proof.Proof.Gen.KernelIdeal.Value
import proofs.«133530_j73547019976929_2_alg».proof.Proof.Gen.ReferenceIdeal.Run
import proofs.«133530_j73547019976929_2_alg».proof.Proof.Gen.ReferenceIdeal.Read
import proofs.«133530_j73547019976929_2_alg».proof.Proof.HostScore
import proofs.«133530_j73547019976929_2_alg».proof.Proof.KernelArray
import proofs.«133530_j73547019976929_2_alg».proof.Proof.HostPrefix
import Idealize.ShloMosaic.Adequacy
import Idealize.ShloMosaic.Init

noncomputable section

namespace Cert.Proof

open Idealize.ShloMosaic Idealize.ShloMosaic.TcCoe Idealize.SL.Sem

/-- The device program's run at exact arithmetic: its result array is the score array of its arguments as launched,
    and the arguments end unchanged. -/
theorem device_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v10)
          = Cert.Scorer.G (Cert.Scorer.Staged.aNH m c) (Cert.Scorer.Staged.aNN m c) (Cert.Scorer.Staged.aW1 m c) (Cert.Scorer.Staged.aB1 m c)
              (Cert.Scorer.Staged.aW2 m c) (Cert.Scorer.Staged.aB2 m c) (Cert.Scorer.Staged.aW3 m c) (Cert.Scorer.Staged.aB3 m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) :=
  (θ_run Cert.KernelIdeal.defs _ _).mono
    (fun r h c => ⟨((h c).1.trans (Cert.Scorer.Result.final m c)).trans (Cert.Scorer.Staged.staged_is_G m c), (h c).2⟩)
    (Cert.KernelIdeal.Value.run_blocks (F := Ideal) m ρ)

theorem frame_device : Cert.frame_Kernel := fun m ρ _ => Cert.Kernel.Gen.frame m ρ

theorem frame_device_ideal : Cert.frame_KernelIdeal := fun m ρ _ => Cert.KernelIdeal.Gen.frame m ρ

/-- The host program's frame is its run with the result dropped. -/
theorem frame_host_ideal : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the score array of those arguments. -/
theorem same_scores : Cert.algebraic_KernelIdeal_ReferenceIdeal := by
  intro m ρ m' ρ' _ hagree
  refine ⟨_, device_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Scorer.Host.result_is_G,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_device, frame_device_ideal, frame_host_ideal, trivial, same_scores⟩

end Cert.Proof

end
